-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x16 : Shape := ⟨2, ![128, 16]⟩
abbrev S16 : Shape := ⟨1, ![16]⟩
abbrev S1 : Shape := ⟨1, ![1]⟩
abbrev S16x2 : Shape := ⟨2, ![16, 2]⟩
abbrev S2 : Shape := ⟨1, ![2]⟩
abbrev S2x6400000 : Shape := ⟨2, ![2, 6400000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S1 : S_.BroadcastsInDim S1 (![] : Fin 0 → Fin S1.rank)
  reducesTo_S1_S_d0 : S1.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S16x2 .f32) (main_arg5 : FVec F S2 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S16x2 .f32 := Host.absf main_arg4
  let main_cst_6 : FVec F S_ .f32 := constant S_ .f32 0x7F800000#32
  let main_v20 : FVec F S16x2 .f32 := broadcastInDim S16x2 ![] bcast_S_S16x2 main_cst_6
  let main_v21 : IVec S16x2 1 := cmpf .olt main_v19 main_v20
  let main_c_7 : IVec S_ 1 := constantI S_ 1 1#1
  let main_v22 : IVec S_ 1 := (fun x v => Host.reduce IntOp.andi x v reducesTo_S16x2_S_d0_1 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S100000x128 .f32) (main_arg1 : FVec F S128x16 .f32) (main_arg2 : FVec F S16 .f32) (main_arg3 : FVec F S1 .f32) (main_arg4 : FVec F S16x2 .f32) (main_arg5 : FVec F S2 .f32) (main_arg6 : IVec S2x6400000 32) (main_arg7 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg1
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_v13 main_v16
-- ==== Kernel.lean ====
abbrev S100000x128 : Shape := ⟨2, ![100000, 128]⟩
abbrev S128x16 : Shape := ⟨2, ![128, 16]⟩
abbrev S16 : Shape := ⟨1, ![16]⟩
abbrev S1 : Shape := ⟨1, ![1]⟩
abbrev S16x2 : Shape := ⟨2, ![16, 2]⟩
abbrev S2 : Shape := ⟨1, ![2]⟩
abbrev S2x6400000 : Shape := ⟨2, ![2, 6400000]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S5000x128 : Shape := ⟨2, ![5000, 128]⟩
abbrev S5000x16 : Shape := ⟨2, ![5000, 16]⟩
abbrev S6500000x16 : Shape := ⟨2, ![6500000, 16]⟩
abbrev S1x16 : Shape := ⟨2, ![1, 16]⟩
abbrev S1x1 : Shape := ⟨2, ![1, 1]⟩
abbrev S100000x2 : Shape := ⟨2, ![100000, 2]⟩
abbrev S5000x2 : Shape := ⟨2, ![5000, 2]⟩
abbrev S6500000x2 : Shape := ⟨2, ![6500000, 2]⟩
abbrev S1x2 : Shape := ⟨2, ![1, 2]⟩
abbrev S64x2 : Shape := ⟨2, ![64, 2]⟩
abbrev S100000x1 : Shape := ⟨2, ![100000, 1]⟩
abbrev S64 : Shape := ⟨1, ![64]⟩
abbrev S64x1 : Shape := ⟨2, ![64, 1]⟩

abbrev nBuf : Space → Nat
  | .hbm => 103
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S128x16, .f32⟩
  | .hbm, ⟨2, _⟩ => ⟨S16, .f32⟩
  | .hbm, ⟨3, _⟩ => ⟨S1, .f32⟩
  | .hbm, ⟨4, _⟩ => ⟨S16x2, .f32⟩
  | .hbm, ⟨5, _⟩ => ⟨S2, .f32⟩
  | .hbm, ⟨6, _⟩ => ⟨S2x6400000, .i32⟩
  | .hbm, ⟨7, _⟩ => ⟨S100000, .i32⟩
  | .hbm, ⟨8, _⟩ => ⟨S100000, .i32⟩
  | .hbm, ⟨9, _⟩ => ⟨S1x6400000, .i32⟩
  | .hbm, ⟨10, _⟩ => ⟨S6400000, .i32⟩
  | .hbm, ⟨11, _⟩ => ⟨S6500000, .i32⟩
  | .hbm, ⟨12, _⟩ => ⟨S1x6400000, .i32⟩
  | .hbm, ⟨13, _⟩ => ⟨S6400000, .i32⟩
  | .hbm, ⟨14, _⟩ => ⟨S6500000, .i32⟩
  | .hbm, ⟨15, _⟩ => ⟨S_, .f32⟩
  | .hbm, ⟨16, _⟩ => ⟨S6500000, .f32⟩
  | .hbm, ⟨17, _⟩ => ⟨S_, .f32⟩
  | .hbm, ⟨18, _⟩ => ⟨S100000, .f32⟩
  | .hbm, ⟨19, _⟩ => ⟨S6500000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S6500000, .i32⟩
  | .hbm, ⟨31, _⟩ => ⟨S6500000, .i1⟩
  | .hbm, ⟨32, _⟩ => ⟨S_, .i32⟩
  | .hbm, ⟨33, _⟩ => ⟨S6500000, .i32⟩
  | .hbm, ⟨34, _⟩ => ⟨S6500000, .i32⟩
  | .hbm, ⟨35, _⟩ => ⟨S6500000, .i32⟩
  | .hbm, ⟨36, _⟩ => ⟨S6500000x1, .i32⟩
  | .hbm, ⟨37, _⟩ => ⟨S6500000, .f32⟩
  | .hbm, ⟨38, _⟩ => ⟨S_, .i32⟩
  | .hbm, ⟨39, _⟩ => ⟨S6500000, .i32⟩
  | .hbm, ⟨40, _⟩ => ⟨S6500000, .i1⟩
  | .hbm, ⟨41, _⟩ => ⟨S_, .i32⟩
  | .hbm, ⟨42, _⟩ => ⟨S6500000, .i32⟩
  | .hbm, ⟨43, _⟩ => ⟨S6500000, .i32⟩
  | .hbm, ⟨44, _⟩ => ⟨S6500000, .i32⟩
  | .hbm, ⟨45, _⟩ => ⟨S6500000x1, .i32⟩
  | .hbm, ⟨46, _⟩ => ⟨S6500000, .f32⟩
  | .hbm, ⟨47, _⟩ => ⟨S6500000, .f32⟩
  | .hbm, ⟨48, _⟩ => ⟨S100000x16, .f32⟩
  | .hbm, ⟨49, _⟩ => ⟨S_, .i32⟩
  | .hbm, ⟨50, _⟩ => ⟨S6500000, .i32⟩
  | .hbm, ⟨51, _⟩ => ⟨S6500000, .i1⟩
  | .hbm, ⟨52, _⟩ => ⟨S_, .i32⟩
  | .hbm, ⟨53, _⟩ => ⟨S6500000, .i32⟩
  | .hbm, ⟨54, _⟩ => ⟨S6500000, .i32⟩
  | .hbm, ⟨55, _⟩ => ⟨S6500000, .i32⟩
  | .hbm, ⟨56, _⟩ => ⟨S6500000x1, .i32⟩
  | .hbm, ⟨57, _⟩ => ⟨S6500000x16, .f32⟩
  | .hbm, ⟨58, _⟩ => ⟨S6500000x1, .f32⟩
  | .hbm, ⟨59, _⟩ => ⟨S6500000x16, .f32⟩
  | .hbm, ⟨60, _⟩ => ⟨S6500000x16, .f32⟩
  | .hbm, ⟨61, _⟩ => ⟨S_, .f32⟩
  | .hbm, ⟨62, _⟩ => ⟨S100000x16, .f32⟩
  | .hbm, ⟨63, _⟩ => ⟨S6500000x1, .i32⟩
  | .hbm, ⟨64, _⟩ => ⟨S100000x16, .f32⟩
  | .hbm, ⟨65, _⟩ => ⟨S1x16, .f32⟩
  | .hbm, ⟨66, _⟩ => ⟨S1x1, .f32⟩
  | .hbm, ⟨67, _⟩ => ⟨S100000x16, .f32⟩
  | .hbm, ⟨68, _⟩ => ⟨S100000x2, .f32⟩
  | .hbm, ⟨69, _⟩ => ⟨S_, .i32⟩
  | .hbm, ⟨70, _⟩ => ⟨S6500000, .i32⟩
  | .hbm, ⟨71, _⟩ => ⟨S6500000, .i1⟩
  | .hbm, ⟨72, _⟩ => ⟨S_, .i32⟩
  | .hbm, ⟨73, _⟩ => ⟨S6500000, .i32⟩
  | .hbm, ⟨74, _⟩ => ⟨S6500000, .i32⟩
  | .hbm, ⟨75, _⟩ => ⟨S6500000, .i32⟩
  | .hbm, ⟨76, _⟩ => ⟨S6500000x1, .i32⟩
  | .hbm, ⟨77, _⟩ => ⟨S6500000x2, .f32⟩
  | .hbm, ⟨78, _⟩ => ⟨S6500000x1, .f32⟩
  | .hbm, ⟨79, _⟩ => ⟨S6500000x2, .f32⟩
  | .hbm, ⟨80, _⟩ => ⟨S6500000x2, .f32⟩
  | .hbm, ⟨81, _⟩ => ⟨S_, .f32⟩
  | .hbm, ⟨82, _⟩ => ⟨S100000x2, .f32⟩
  | .hbm, ⟨83, _⟩ => ⟨S6500000x1, .i32⟩
  | .hbm, ⟨84, _⟩ => ⟨S100000x2, .f32⟩
  | .hbm, ⟨85, _⟩ => ⟨S1x2, .f32⟩
  | .hbm, ⟨86, _⟩ => ⟨S100000x2, .f32⟩
  | .hbm, ⟨87, _⟩ => ⟨S_, .f32⟩
  | .hbm, ⟨88, _⟩ => ⟨S64x2, .f32⟩
  | .hbm, ⟨89, _⟩ => ⟨S100000x1, .i32⟩
  | .hbm, ⟨90, _⟩ => ⟨S64x2, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S64, .f32⟩
  | .hbm, ⟨95, _⟩ => ⟨S100000x1, .i32⟩
  | .hbm, ⟨96, _⟩ => ⟨S64, .f32⟩
  | .hbm, ⟨97, _⟩ => ⟨S_, .f32⟩
  | .hbm, ⟨98, _⟩ => ⟨S64, .f32⟩
  | .hbm, ⟨99, _⟩ => ⟨S64, .f32⟩
  | .hbm, ⟨100, _⟩ => ⟨S64x1, .f32⟩
  | .hbm, ⟨101, _⟩ => ⟨S64x2, .f32⟩
  | .hbm, ⟨102, _⟩ => ⟨S64x2, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S1x1, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S16x2, .f32⟩
  | .local _ .vmem, ⟨14, _⟩ => ⟨S5000x2, .f32⟩
  | .local _ .vmem, ⟨15, _⟩ => ⟨S5000x2, .f32⟩
  | .local _ .vmem, ⟨16, _⟩ => ⟨S5000x2, .f32⟩
  | .local _ .vmem, ⟨17, _⟩ => ⟨S5000x2, .f32⟩
  | .local _ .vmem, ⟨18, _⟩ => ⟨S1x2, .f32⟩
  | .local _ .vmem, ⟨19, _⟩ => ⟨S5000x2, .f32⟩
  | .local _ .vmem, ⟨20, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  shapeCasts_S16_S1x16 : S16.ShapeCasts S1x16
  shapeCasts_S1_S1x1 : S1.ShapeCasts S1x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S5000x16_S5000x16 : S5000x16.ShapeCasts S5000x16
  inb_S16x2_S16x2_0_0 : ∀ a, (![0, 0] : Fin 2 → Nat) a + S16x2.size a ≤ S16x2.size a
  h_S16x2 : 0 < S16x2.numel
  inb_S5000x2_S5000x2_0_0 : ∀ a, (![0, 0] : Fin 2 → Nat) a + S5000x2.size a ≤ S5000x2.size a
  h_S5000x2 : 0 < S5000x2.numel
  bcast_S6500000x1_S6500000x2_0_1 : S6500000x1.BroadcastsInDim S6500000x2 (![0, 1] : Fin 2 → Fin S6500000x2.rank)
  bcast_S_S100000x2 : S_.BroadcastsInDim S100000x2 (![] : Fin 0 → Fin S100000x2.rank)
  shapeCasts_S2_S1x2 : S2.ShapeCasts S1x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  shapeCasts_S5000x2_S5000x2 : S5000x2.ShapeCasts S5000x2
  bcast_S_S64x2 : S_.BroadcastsInDim S64x2 (![] : Fin 0 → Fin S64x2.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S5000x128_S128x16_S5000x16_1_0_0_1_n_n_wf : DotDims.WF S5000x128 S128x16 S5000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S5000x16_S16x2_S5000x2_1_0_0_1_n_n_wf : DotDims.WF S5000x16 S16x2 S5000x2 [1] [0] [0] [1] [] []
  gather_S100000x2_S6500000x1_S6500000x2_1_0_n_n_0_1_12_wf : GatherDims.WF S100000x2 S6500000x1 S6500000x2 [1] [0] [] [0] [] 1 ![1, 2]
  scatter_S100000x2_S6500000x1_S6500000x2_1_0_0_1_wf : ScatterDims.WF S100000x2 S6500000x1 S6500000x2 [1] [0] [0] 1
  scatter_S64x2_S100000x1_S100000x2_1_0_0_1_wf : ScatterDims.WF S64x2 S100000x1 S100000x2 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x2.size a ≤ S16x2.size a
  hwx2_1 : ∀ i : grid2.Coords, EltTy.bits .f32 = 32 ∨ (Rect.block (s := S16x2) S16x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S100000x2.size a
  hwx2_2 : ∀ i : grid2.Coords, EltTy.bits .f32 = 32 ∨ (Rect.block (s := S100000x2) S5000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S100000x2.size a
  hwx3_0 : ∀ i : grid3.Coords, EltTy.bits .f32 = 32 ∨ (Rect.block (s := S100000x2) S5000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x2.size a ≤ S100000x2.size a
  hwx3_2 : ∀ i : grid3.Coords, EltTy.bits .f32 = 32 ∨ (Rect.block (s := S100000x2) S5000x2.size (cc3_transform_2 i) (hinb3_2 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf
def gather_S100000x2_S6500000x1_S6500000x2_1_0_n_n_0_1_12 : GatherDims S100000x2 S6500000x1 S6500000x2 where
  offsetDims := [1]
  collapsedSliceDims := [0]
  operandBatchingDims := []
  startIndicesBatchingDims := []
  startIndexMap := [0]
  indexVectorDim := 1
  sliceSizes := ![1, 2]
  wf := gather_S100000x2_S6500000x1_S6500000x2_1_0_n_n_0_1_12_wf
def scatter_S100000x2_S6500000x1_S6500000x2_1_0_0_1 : ScatterDims S100000x2 S6500000x1 S6500000x2 where
  updateWindowDims := [1]
  insertedWindowDims := [0]
  scatterDimsToOperandDims := [0]
  indexVectorDim := 1
  wf := scatter_S100000x2_S6500000x1_S6500000x2_1_0_0_1_wf
def scatter_S64x2_S100000x1_S100000x2_1_0_0_1 : ScatterDims S64x2 S100000x1 S100000x2 where
  updateWindowDims := [1]
  insertedWindowDims := [0]
  scatterDimsToOperandDims := [0]
  indexVectorDim := 1
  wf := scatter_S64x2_S100000x1_S100000x2_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x16 : Shape := ⟨2, ![128, 16]⟩
abbrev S16 : Shape := ⟨1, ![16]⟩
abbrev S1 : Shape := ⟨1, ![1]⟩
abbrev S16x2 : Shape := ⟨2, ![16, 2]⟩
abbrev S2 : Shape := ⟨1, ![2]⟩
abbrev S2x6400000 : Shape := ⟨2, ![2, 6400000]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S6500000x16 : Shape := ⟨2, ![6500000, 16]⟩
abbrev S1x16 : Shape := ⟨2, ![1, 16]⟩
abbrev S1x1 : Shape := ⟨2, ![1, 1]⟩
abbrev S100000x2 : Shape := ⟨2, ![100000, 2]⟩
abbrev S6500000x2 : Shape := ⟨2, ![6500000, 2]⟩
abbrev S1x2 : Shape := ⟨2, ![1, 2]⟩
abbrev S64x2 : Shape := ⟨2, ![64, 2]⟩
abbrev S100000x1 : Shape := ⟨2, ![100000, 1]⟩
abbrev S64 : Shape := ⟨1, ![64]⟩
abbrev S64x1 : Shape := ⟨2, ![64, 1]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x16, .f32⟩
  | .hbm, ⟨2, _⟩ => ⟨S16, .f32⟩
  | .hbm, ⟨3, _⟩ => ⟨S1, .f32⟩
  | .hbm, ⟨4, _⟩ => ⟨S16x2, .f32⟩
  | .hbm, ⟨5, _⟩ => ⟨S2, .f32⟩
  | .hbm, ⟨6, _⟩ => ⟨S2x6400000, .i32⟩
  | .hbm, ⟨7, _⟩ => ⟨S100000, .i32⟩
  | .hbm, ⟨8, _⟩ => ⟨S100000, .i32⟩
  | .hbm, ⟨9, _⟩ => ⟨S1x6400000, .i32⟩
  | .hbm, ⟨10, _⟩ => ⟨S6400000, .i32⟩
  | .hbm, ⟨11, _⟩ => ⟨S6500000, .i32⟩
  | .hbm, ⟨12, _⟩ => ⟨S1x6400000, .i32⟩
  | .hbm, ⟨13, _⟩ => ⟨S6400000, .i32⟩
  | .hbm, ⟨14, _⟩ => ⟨S6500000, .i32⟩
  | .hbm, ⟨15, _⟩ => ⟨S_, .f32⟩
  | .hbm, ⟨16, _⟩ => ⟨S6500000, .f32⟩
  | .hbm, ⟨17, _⟩ => ⟨S_, .f32⟩
  | .hbm, ⟨18, _⟩ => ⟨S100000, .f32⟩
  | .hbm, ⟨19, _⟩ => ⟨S6500000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S6500000, .i32⟩
  | .hbm, ⟨31, _⟩ => ⟨S6500000, .i1⟩
  | .hbm, ⟨32, _⟩ => ⟨S_, .i32⟩
  | .hbm, ⟨33, _⟩ => ⟨S6500000, .i32⟩
  | .hbm, ⟨34, _⟩ => ⟨S6500000, .i32⟩
  | .hbm, ⟨35, _⟩ => ⟨S6500000, .i32⟩
  | .hbm, ⟨36, _⟩ => ⟨S6500000x1, .i32⟩
  | .hbm, ⟨37, _⟩ => ⟨S6500000, .f32⟩
  | .hbm, ⟨38, _⟩ => ⟨S_, .i32⟩
  | .hbm, ⟨39, _⟩ => ⟨S6500000, .i32⟩
  | .hbm, ⟨40, _⟩ => ⟨S6500000, .i1⟩
  | .hbm, ⟨41, _⟩ => ⟨S_, .i32⟩
  | .hbm, ⟨42, _⟩ => ⟨S6500000, .i32⟩
  | .hbm, ⟨43, _⟩ => ⟨S6500000, .i32⟩
  | .hbm, ⟨44, _⟩ => ⟨S6500000, .i32⟩
  | .hbm, ⟨45, _⟩ => ⟨S6500000x1, .i32⟩
  | .hbm, ⟨46, _⟩ => ⟨S6500000, .f32⟩
  | .hbm, ⟨47, _⟩ => ⟨S6500000, .f32⟩
  | .hbm, ⟨48, _⟩ => ⟨S100000x16, .f32⟩
  | .hbm, ⟨49, _⟩ => ⟨S_, .i32⟩
  | .hbm, ⟨50, _⟩ => ⟨S6500000, .i32⟩
  | .hbm, ⟨51, _⟩ => ⟨S6500000, .i1⟩
  | .hbm, ⟨52, _⟩ => ⟨S_, .i32⟩
  | .hbm, ⟨53, _⟩ => ⟨S6500000, .i32⟩
  | .hbm, ⟨54, _⟩ => ⟨S6500000, .i32⟩
  | .hbm, ⟨55, _⟩ => ⟨S6500000, .i32⟩
  | .hbm, ⟨56, _⟩ => ⟨S6500000x1, .i32⟩
  | .hbm, ⟨57, _⟩ => ⟨S6500000x16, .f32⟩
  | .hbm, ⟨58, _⟩ => ⟨S6500000x1, .f32⟩
  | .hbm, ⟨59, _⟩ => ⟨S6500000x16, .f32⟩
  | .hbm, ⟨60, _⟩ => ⟨S6500000x16, .f32⟩
  | .hbm, ⟨61, _⟩ => ⟨S_, .f32⟩
  | .hbm, ⟨62, _⟩ => ⟨S100000x16, .f32⟩
  | .hbm, ⟨63, _⟩ => ⟨S6500000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x16, .f32⟩
  | .hbm, ⟨68, _⟩ => ⟨S_, .f32⟩
  | .hbm, ⟨69, _⟩ => ⟨S100000x16, .f32⟩
  | .hbm, ⟨70, _⟩ => ⟨S100000x16, .i1⟩
  | .hbm, ⟨71, _⟩ => ⟨S1x1, .f32⟩
  | .hbm, ⟨72, _⟩ => ⟨S100000x16, .f32⟩
  | .hbm, ⟨73, _⟩ => ⟨S100000x16, .f32⟩
  | .hbm, ⟨74, _⟩ => ⟨S100000x16, .f32⟩
  | .hbm, ⟨75, _⟩ => ⟨S100000x2, .f32⟩
  | .hbm, ⟨76, _⟩ => ⟨S_, .i32⟩
  | .hbm, ⟨77, _⟩ => ⟨S6500000, .i32⟩
  | .hbm, ⟨78, _⟩ => ⟨S6500000, .i1⟩
  | .hbm, ⟨79, _⟩ => ⟨S_, .i32⟩
  | .hbm, ⟨80, _⟩ => ⟨S6500000, .i32⟩
  | .hbm, ⟨81, _⟩ => ⟨S6500000, .i32⟩
  | .hbm, ⟨82, _⟩ => ⟨S6500000, .i32⟩
  | .hbm, ⟨83, _⟩ => ⟨S6500000x1, .i32⟩
  | .hbm, ⟨84, _⟩ => ⟨S6500000x2, .f32⟩
  | .hbm, ⟨85, _⟩ => ⟨S6500000x1, .f32⟩
  | .hbm, ⟨86, _⟩ => ⟨S6500000x2, .f32⟩
  | .hbm, ⟨87, _⟩ => ⟨S6500000x2, .f32⟩
  | .hbm, ⟨88, _⟩ => ⟨S_, .f32⟩
  | .hbm, ⟨89, _⟩ => ⟨S100000x2, .f32⟩
  | .hbm, ⟨90, _⟩ => ⟨S6500000x1, .i32⟩
  | .hbm, ⟨91, _⟩ => ⟨S100000x2, .f32⟩
  | .hbm, ⟨92, _⟩ => ⟨S1x2, .f32⟩
  | .hbm, ⟨93, _⟩ => ⟨S100000x2, .f32⟩
  | .hbm, ⟨94, _⟩ => ⟨S100000x2, .f32⟩
  | .hbm, ⟨95, _⟩ => ⟨S_, .f32⟩
  | .hbm, ⟨96, _⟩ => ⟨S64x2, .f32⟩
  | .hbm, ⟨97, _⟩ => ⟨S100000x1, .i32⟩
  | .hbm, ⟨98, _⟩ => ⟨S64x2, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S64, .f32⟩
  | .hbm, ⟨103, _⟩ => ⟨S100000x1, .i32⟩
  | .hbm, ⟨104, _⟩ => ⟨S64, .f32⟩
  | .hbm, ⟨105, _⟩ => ⟨S_, .f32⟩
  | .hbm, ⟨106, _⟩ => ⟨S64, .f32⟩
  | .hbm, ⟨107, _⟩ => ⟨S64, .f32⟩
  | .hbm, ⟨108, _⟩ => ⟨S64x1, .f32⟩
  | .hbm, ⟨109, _⟩ => ⟨S64x2, .f32⟩
  | .hbm, ⟨110, _⟩ => ⟨S64x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_16 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1_S1x1_1 : S1.BroadcastsInDim S1x1 (![1] : Fin 1 → Fin S1x1.rank)
  bcast_S1x1_S100000x16_0_1 : S1x1.BroadcastsInDim S100000x16 (![0, 1] : Fin 2 → Fin S100000x16.rank)
  bcast_S6500000x1_S6500000x2_0_1 : S6500000x1.BroadcastsInDim S6500000x2 (![0, 1] : Fin 2 → Fin S6500000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S64x2 : S_.BroadcastsInDim S64x2 (![] : Fin 0 → Fin S64x2.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x128_S128x16_S100000x16_1_0_0_1_n_n_wf : DotDims.WF S100000x128 S128x16 S100000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S100000x16_S16x2_S100000x2_1_0_0_1_n_n_wf : DotDims.WF S100000x16 S16x2 S100000x2 [1] [0] [0] [1] [] []
  gather_S100000x2_S6500000x1_S6500000x2_1_0_n_n_0_1_12_wf : GatherDims.WF S100000x2 S6500000x1 S6500000x2 [1] [0] [] [0] [] 1 ![1, 2]
  scatter_S100000x2_S6500000x1_S6500000x2_1_0_0_1_wf : ScatterDims.WF S100000x2 S6500000x1 S6500000x2 [1] [0] [0] 1
  scatter_S64x2_S100000x1_S100000x2_1_0_0_1_wf : ScatterDims.WF S64x2 S100000x1 S100000x2 [1] [0] [0] 1
  scatter_S64_S100000x1_S100000_n_0_0_1_wf : ScatterDims.WF S64 S100000x1 S100000 [] [0] [0] 1

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S6500000x1_S6500000x2_1_0_n_n_0_1_12 : GatherDims S100000x2 S6500000x1 S6500000x2 where
  offsetDims := [1]
  collapsedSliceDims := [0]
  operandBatchingDims := []
  startIndicesBatchingDims := []
  startIndexMap := [0]
  indexVectorDim := 1
  sliceSizes := ![1, 2]
  wf := gather_S100000x2_S6500000x1_S6500000x2_1_0_n_n_0_1_12_wf
def scatter_S100000x2_S6500000x1_S6500000x2_1_0_0_1 : ScatterDims S100000x2 S6500000x1 S6500000x2 where
  updateWindowDims := [1]
  insertedWindowDims := [0]
  scatterDimsToOperandDims := [0]
  indexVectorDim := 1
  wf := scatter_S100000x2_S6500000x1_S6500000x2_1_0_0_1_wf
def scatter_S64x2_S100000x1_S100000x2_1_0_0_1 : ScatterDims S64x2 S100000x1 S100000x2 where
  updateWindowDims := [1]
  insertedWindowDims := [0]
  scatterDimsToOperandDims := [0]
  indexVectorDim := 1
  wf := scatter_S64x2_S100000x1_S100000x2_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.Spec.lean ====
/-
  The four dense stages of the two-layer graph convolution, each as ONE function of its operand arrays read index by
  index over the extended reals. Nothing here mentions a program: the shapes are literal.

    dense16 x w   : entry (n, j) is the sum over the 128 input features k of x (n, k) · w (k, j)
    act agg b a   : with h = agg (n, j) + b (0, j), entry (n, j) is h where h ≥ 0 and a (0, 0) · h elsewhere (PReLU with
                    one shared slope; b is a 1×16 row, a a 1×1 cell)
    dense2 h w    : entry (n, j) is the sum over the 16 hidden features k of h (n, k) · w (k, j)
    bias2 agg b   : entry (n, j) is agg (n, j) + b (0, j), b a 1×2 row
-/
import Idealize.ShloMosaic.PureOps.Ideal
import Idealize.ShloMosaic.Lib.ValueIdx

noncomputable section

namespace Cert.Spec

open Idealize.ShloMosaic Idealize.ShloMosaic.ValueIdx

/-- The first layer's feature transform: every node's 128 features against the 128×16 weight matrix. -/
def dense16 (x : FVec Ideal ⟨2, ![100000, 128]⟩ .f32) (w : FVec Ideal ⟨2, ![128, 16]⟩ .f32) :
    FVec Ideal ⟨2, ![100000, 16]⟩ .f32 :=
  fun i => ∑ k : Fin 128, x (ix2 (i 0) k) * w (ix2 k (i 1))

/-- The aggregated features plus the bias row, then PReLU with the one shared slope. -/
def act (agg : FVec Ideal ⟨2, ![100000, 16]⟩ .f32) (b : FVec Ideal ⟨2, ![1, 16]⟩ .f32) (a : FVec Ideal ⟨2, ![1, 1]⟩ .f32) :
    FVec Ideal ⟨2, ![100000, 16]⟩ .f32 :=
  fun i => Scalar.select (FloatOps.cmpf .oge (agg i + b (ix2 0 (i 1))) (FloatOps.ofBits (F := Ideal) .f32 0x00000000#32))
    (agg i + b (ix2 0 (i 1))) (a (ix2 0 0) * (agg i + b (ix2 0 (i 1))))

/-- The second layer's feature transform: every node's 16 hidden features against the 16×2 weight matrix. -/
def dense2 (h : FVec Ideal ⟨2, ![100000, 16]⟩ .f32) (w : FVec Ideal ⟨2, ![16, 2]⟩ .f32) :
    FVec Ideal ⟨2, ![100000, 2]⟩ .f32 :=
  fun i => ∑ k : Fin 16, h (ix2 (i 0) k) * w (ix2 k (i 1))

/-- The second layer's aggregated features plus its bias row. -/
def bias2 (agg : FVec Ideal ⟨2, ![100000, 2]⟩ .f32) (b : FVec Ideal ⟨2, ![1, 2]⟩ .f32) :
    FVec Ideal ⟨2, ![100000, 2]⟩ .f32 :=
  fun i => agg i + b (ix2 0 (i 1))

end Cert.Spec

end
-- ==== Proof.RefChain.lean ====
/-
  The reference program's stages, read against the specification of the four dense stages.

  The reference computes, from the node features x, the weights and biases, the edge list e and the graph labels g:
    pre1 = x · W1;   agg1 = A(pre1);   h1 = PReLU(agg1 + b1);   pre2 = h1 · W2;   agg2 = A(pre2);   h2 = agg2 + b2;
    result = mean-pool of h2 over the graphs,
  where A gathers each edge's source row, scales it by the symmetric normalisation of the edge (a function of the edge
  list only) and adds it into the edge's target row. The aggregation A and the pooling are carried here as three opaque
  functions of the array going in (`agg16`, `agg2`, `pool`): both programs apply the same host operations there, so
  nothing about a gather or a scatter-add is ever needed. The dense stages are identified with the specification index
  by index: a product with a weight matrix is the sum over the contracted axis; a bias row broadcast down the nodes is
  read at the entry's column; the one PReLU slope is read at its only cell.
-/
import proofs.«171630_j17008070492798_1_alg».proof.Proof.RefRead
import proofs.«171630_j17008070492798_1_alg».proof.Proof.Spec

set_option maxRecDepth 16384

noncomputable section

namespace Cert.ReferenceIdeal.Chain

open Cert.ReferenceIdeal Cert.ReferenceIdeal.ReadP Idealize.ShloMosaic Idealize.ShloMosaic.ValueIdx

/-- The first layer's aggregation: gather the source rows of `pre` (16 wide), scale each by its edge's normalisation,
    add into the target rows. -/
def agg16 (pre : FVec Ideal S100000x16 .f32) (x6 : (⟨S2x6400000, .i32⟩ : BufTy).Contents (Elt Ideal)) : FVec Ideal S100000x16 .f32 :=
  Host.scatterAdd (F := Ideal) scatter_S100000x16_S6500000x1_S6500000x16_1_0_0_1 (val_main_v41 (F := Ideal)) (val_main_v42 (F := Ideal) x6)
    (mulf (F := Ideal) (Host.gather gather_S100000x16_S6500000x1_S6500000x16_1_0_n_n_0_1_116 pre (val_main_v36 (F := Ideal) x6)) (val_main_v39 (F := Ideal) x6))

/-- The second layer's aggregation: the same over rows 2 wide. -/
def agg2 (pre : FVec Ideal S100000x2 .f32) (x6 : (⟨S2x6400000, .i32⟩ : BufTy).Contents (Elt Ideal)) : FVec Ideal S100000x2 .f32 :=
  Host.scatterAdd (F := Ideal) scatter_S100000x2_S6500000x1_S6500000x2_1_0_0_1 (val_main_v64 (F := Ideal)) (val_main_v65 (F := Ideal) x6)
    (mulf (F := Ideal) (Host.gather gather_S100000x2_S6500000x1_S6500000x2_1_0_n_n_0_1_12 pre (val_main_v59 (F := Ideal) x6)) (val_main_v62 (F := Ideal) x6))

/-- The mean pool: the rows of `h` added per graph, divided by the graph's node count (at least one). -/
def pool (h : FVec Ideal S100000x2 .f32) (x7 : (⟨S100000, .i32⟩ : BufTy).Contents (Elt Ideal)) : FVec Ideal S64x2 .f32 :=
  Host.divf (F := Ideal) (Host.scatterAdd (F := Ideal) scatter_S64x2_S100000x1_S100000x2_1_0_0_1 (val_main_v70 (F := Ideal)) (val_main_v71 (F := Ideal) x7) h) (val_main_v80 (F := Ideal) x7)

theorem v43_eq (x0 : (⟨S100000x128, .f32⟩ : BufTy).Contents (Elt Ideal)) (x1 : (⟨S128x16, .f32⟩ : BufTy).Contents (Elt Ideal)) (x6 : (⟨S2x6400000, .i32⟩ : BufTy).Contents (Elt Ideal)) :
    val_main_v43 (F := Ideal) x0 x1 x6 = agg16 (val_main_v30 (F := Ideal) x0 x1) x6 := rfl

theorem v66_eq (x0 : (⟨S100000x128, .f32⟩ : BufTy).Contents (Elt Ideal)) (x1 : (⟨S128x16, .f32⟩ : BufTy).Contents (Elt Ideal)) (x2 : (⟨S16, .f32⟩ : BufTy).Contents (Elt Ideal)) (x3 : (⟨S1, .f32⟩ : BufTy).Contents (Elt Ideal)) (x4 : (⟨S16x2, .f32⟩ : BufTy).Contents (Elt Ideal)) (x6 : (⟨S2x6400000, .i32⟩ : BufTy).Contents (Elt Ideal)) :
    val_main_v66 (F := Ideal) x0 x1 x2 x3 x4 x6 = agg2 (val_main_v53 (F := Ideal) x0 x1 x2 x3 x4 x6) x6 := rfl

theorem v81_eq (x0 : (⟨S100000x128, .f32⟩ : BufTy).Contents (Elt Ideal)) (x1 : (⟨S128x16, .f32⟩ : BufTy).Contents (Elt Ideal)) (x2 : (⟨S16, .f32⟩ : BufTy).Contents (Elt Ideal)) (x3 : (⟨S1, .f32⟩ : BufTy).Contents (Elt Ideal)) (x4 : (⟨S16x2, .f32⟩ : BufTy).Contents (Elt Ideal)) (x5 : (⟨S2, .f32⟩ : BufTy).Contents (Elt Ideal)) (x6 : (⟨S2x6400000, .i32⟩ : BufTy).Contents (Elt Ideal)) (x7 : (⟨S100000, .i32⟩ : BufTy).Contents (Elt Ideal)) :
    val_main_v81 (F := Ideal) x0 x1 x2 x3 x4 x5 x6 x7 = pool (val_main_v69 (F := Ideal) x0 x1 x2 x3 x4 x5 x6) x7 := rfl

/-- The first product is the sum over the 128 input features. -/
theorem v30_eq (x0 : (⟨S100000x128, .f32⟩ : BufTy).Contents (Elt Ideal)) (x1 : (⟨S128x16, .f32⟩ : BufTy).Contents (Elt Ideal)) : val_main_v30 (F := Ideal) x0 x1 = Cert.Spec.dense16 x0 x1 := by
  funext i
  rw [val_main_v30_apply]
  unfold Cert.Spec.dense16
  refine Finset.sum_congr rfl fun k _ => ?_
  have el : lidx_main_v30 i k = ix2 (i 0) k := funext fun a => Fin.ext (by
    match a with
    | ⟨0, _⟩ => rfl
    | ⟨1, _⟩ => rfl)
  have er : ridx_main_v30 i k = ix2 k (i 1) := funext fun a => Fin.ext (by
    match a with
    | ⟨0, _⟩ => rfl
    | ⟨1, _⟩ => rfl)
  rw [el, er]
  rfl

/-- The second product is the sum over the 16 hidden features. -/
theorem v53_eq (x0 : (⟨S100000x128, .f32⟩ : BufTy).Contents (Elt Ideal)) (x1 : (⟨S128x16, .f32⟩ : BufTy).Contents (Elt Ideal)) (x2 : (⟨S16, .f32⟩ : BufTy).Contents (Elt Ideal)) (x3 : (⟨S1, .f32⟩ : BufTy).Contents (Elt Ideal)) (x4 : (⟨S16x2, .f32⟩ : BufTy).Contents (Elt Ideal)) (x6 : (⟨S2x6400000, .i32⟩ : BufTy).Contents (Elt Ideal)) :
    val_main_v53 (F := Ideal) x0 x1 x2 x3 x4 x6 = Cert.Spec.dense2 (val_main_v52 (F := Ideal) x0 x1 x2 x3 x6) x4 := by
  funext i
  rw [val_main_v53_apply]
  unfold Cert.Spec.dense2
  refine Finset.sum_congr rfl fun k _ => ?_
  have el : lidx_main_v53 i k = ix2 (i 0) k := funext fun a => Fin.ext (by
    match a with
    | ⟨0, _⟩ => rfl
    | ⟨1, _⟩ => rfl)
  have er : ridx_main_v53 i k = ix2 k (i 1) := funext fun a => Fin.ext (by
    match a with
    | ⟨0, _⟩ => rfl
    | ⟨1, _⟩ => rfl)
  rw [el, er]
  rfl

/-- Bias row and PReLU: the bias broadcast down the nodes is read at the entry's column, the slope at its one cell. -/
theorem v52_eq (x0 : (⟨S100000x128, .f32⟩ : BufTy).Contents (Elt Ideal)) (x1 : (⟨S128x16, .f32⟩ : BufTy).Contents (Elt Ideal)) (x2 : (⟨S16, .f32⟩ : BufTy).Contents (Elt Ideal)) (x3 : (⟨S1, .f32⟩ : BufTy).Contents (Elt Ideal)) (x6 : (⟨S2x6400000, .i32⟩ : BufTy).Contents (Elt Ideal)) :
    val_main_v52 (F := Ideal) x0 x1 x2 x3 x6
      = Cert.Spec.act (val_main_v43 (F := Ideal) x0 x1 x6) (val_main_v44 (F := Ideal) x2) (val_main_v49 (F := Ideal) x3) := by
  funext i
  have e45 : val_main_v45 (F := Ideal) x2 i = val_main_v44 (F := Ideal) x2 (ix2 0 (i 1)) := by
    rw [val_main_v45_apply]
    exact congrArg _ (funext fun a => Fin.ext (by
      match a with
      | ⟨0, _⟩ => rfl
      | ⟨1, _⟩ => rfl))
  have e50 : val_main_v50 (F := Ideal) x3 i = val_main_v49 (F := Ideal) x3 (ix2 0 0) := by
    rw [val_main_v50_apply]
    exact congrArg _ (funext fun a => Fin.ext (by
      match a with
      | ⟨0, _⟩ => rfl
      | ⟨1, _⟩ => rfl))
  have e47 : val_main_v47 (F := Ideal) i = FloatOps.ofBits (F := Ideal) .f32 0x00000000#32 := by
    rw [val_main_v47_apply]; rfl
  rw [val_main_v52_apply, val_main_v48_apply, val_main_v51_apply, val_main_v46_apply, e45, e50, e47]
  rfl

/-- The second bias row, read at the entry's column. -/
theorem v69_eq (x0 : (⟨S100000x128, .f32⟩ : BufTy).Contents (Elt Ideal)) (x1 : (⟨S128x16, .f32⟩ : BufTy).Contents (Elt Ideal)) (x2 : (⟨S16, .f32⟩ : BufTy).Contents (Elt Ideal)) (x3 : (⟨S1, .f32⟩ : BufTy).Contents (Elt Ideal)) (x4 : (⟨S16x2, .f32⟩ : BufTy).Contents (Elt Ideal)) (x5 : (⟨S2, .f32⟩ : BufTy).Contents (Elt Ideal)) (x6 : (⟨S2x6400000, .i32⟩ : BufTy).Contents (Elt Ideal)) :
    val_main_v69 (F := Ideal) x0 x1 x2 x3 x4 x5 x6
      = Cert.Spec.bias2 (val_main_v66 (F := Ideal) x0 x1 x2 x3 x4 x6) (val_main_v67 (F := Ideal) x5) := by
  funext i
  have e68 : val_main_v68 (F := Ideal) x5 i = val_main_v67 (F := Ideal) x5 (ix2 0 (i 1)) := by
    rw [val_main_v68_apply]
    exact congrArg _ (funext fun a => Fin.ext (by
      match a with
      | ⟨0, _⟩ => rfl
      | ⟨1, _⟩ => rfl))
  rw [val_main_v69_apply, e68]
  rfl

/-- The reference's result as the composition of the specified dense stages with the three opaque host chains. -/
theorem result_eq (x0 : (⟨S100000x128, .f32⟩ : BufTy).Contents (Elt Ideal)) (x1 : (⟨S128x16, .f32⟩ : BufTy).Contents (Elt Ideal)) (x2 : (⟨S16, .f32⟩ : BufTy).Contents (Elt Ideal)) (x3 : (⟨S1, .f32⟩ : BufTy).Contents (Elt Ideal)) (x4 : (⟨S16x2, .f32⟩ : BufTy).Contents (Elt Ideal)) (x5 : (⟨S2, .f32⟩ : BufTy).Contents (Elt Ideal)) (x6 : (⟨S2x6400000, .i32⟩ : BufTy).Contents (Elt Ideal)) (x7 : (⟨S100000, .i32⟩ : BufTy).Contents (Elt Ideal)) :
    val_main_v81 (F := Ideal) x0 x1 x2 x3 x4 x5 x6 x7
      = pool (Cert.Spec.bias2 (agg2 (Cert.Spec.dense2 (Cert.Spec.act (agg16 (Cert.Spec.dense16 x0 x1) x6)
          (val_main_v44 (F := Ideal) x2) (val_main_v49 (F := Ideal) x3)) x4) x6) (val_main_v67 (F := Ideal) x5)) x7 := by
  rw [v81_eq, v69_eq, v66_eq, v53_eq, v52_eq, v43_eq, v30_eq]

end Cert.ReferenceIdeal.Chain

end
-- ==== Proof.KernelRun.lean ====
/-
  The idealized kernel program's run with its RESULT named: every weakly fair execution of @main terminates, nothing
  faulting, the arguments unchanged, and the result buffer holds what the last stretch of host operations leaves there —
  the fold of @main's ten segments (four pipelined regions among six stretches of host operations) from the launch
  memory, read at the result's reference. The segments, their boundary contents and the launch are the frame's own; only
  the last reading differs: the result buffer is read beside the arguments.
-/
import proofs.«171630_j17008070492798_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v74) = W10 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v74 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.RunValue

end
-- ==== Proof.KernelHost.lean ====
/-
  The idealized kernel program's host operations, read between its four pipelined regions.

  The buffer contents at the ten segment boundaries of the program are a fold from the launch memory. Here each buffer a
  later segment reads is followed through that fold:
    * the edge structure (sources, targets, the edges' normalisation) is computed before the first region from the edge
      list alone, by the same operations as the reference's, and no later segment writes it;
    * an argument array is written by no segment;
    * between the regions the host gathers, scales and scatter-adds the region's output exactly as the reference does
      with its own product, so the aggregated array is the reference's aggregation function (`agg16`, `agg2`) of the
      region's output, and after the last region the result is the reference's pooling function (`pool`) of that
      region's output;
    * a bias vector or the slope reshaped to one row reads, at column j of its row, the vector's entry j — which is also
      what the reference's broadcast of the same vector to one row reads.
-/
import proofs.«171630_j17008070492798_1_alg».proof.Proof.Gen.KernelIdeal.Frame
import proofs.«171630_j17008070492798_1_alg».proof.Proof.RefChain
import Idealize.ShloMosaic.Lib.StableHlo.Run
import Idealize.ShloMosaic.Lib.ValueLayout

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo Idealize.ShloMosaic.ValueIdx
open Cert.ReferenceIdeal.ReadP Cert.ReferenceIdeal.Chain

/-! ## A vector reshaped to one row is the reference's broadcast of it to one row -/

theorem row16 (x : FVec Ideal ⟨1, ![16]⟩ .f32) (h : (⟨1, ![16]⟩ : Shape).ShapeCasts ⟨2, ![1, 16]⟩) :
    shapeCast ⟨2, ![1, 16]⟩ x h = val_main_v44 (F := Ideal) x := by
  funext j
  obtain ⟨u, q, rfl⟩ : ∃ (u : Fin 1) (q : Fin 16), j = ix2 u q := ⟨j 0, j 1, eq_ix2 j⟩
  rw [val_main_v44_apply]
  exact (shapeCast_a_1a_apply x h u q).trans (congrArg x (funext fun a => Fin.ext (by
    match a with
    | ⟨0, _⟩ => rfl)))

theorem row1 (x : FVec Ideal ⟨1, ![1]⟩ .f32) (h : (⟨1, ![1]⟩ : Shape).ShapeCasts ⟨2, ![1, 1]⟩) :
    shapeCast ⟨2, ![1, 1]⟩ x h = val_main_v49 (F := Ideal) x := by
  funext j
  obtain ⟨u, q, rfl⟩ : ∃ (u : Fin 1) (q : Fin 1), j = ix2 u q := ⟨j 0, j 1, eq_ix2 j⟩
  rw [val_main_v49_apply]
  exact (shapeCast_a_1a_apply x h u q).trans (congrArg x (funext fun a => Fin.ext (by
    match a with
    | ⟨0, _⟩ => show q.val = 0; omega)))

theorem row2 (x : FVec Ideal ⟨1, ![2]⟩ .f32) (h : (⟨1, ![2]⟩ : Shape).ShapeCasts ⟨2, ![1, 2]⟩) :
    shapeCast ⟨2, ![1, 2]⟩ x h = val_main_v67 (F := Ideal) x := by
  funext j
  obtain ⟨u, q, rfl⟩ : ∃ (u : Fin 1) (q : Fin 2), j = ix2 u q := ⟨j 0, j 1, eq_ix2 j⟩
  rw [val_main_v67_apply]
  exact (shapeCast_a_1a_apply x h u q).trans (congrArg x (funext fun a => Fin.ext (by
    match a with
    | ⟨0, _⟩ => rfl)))

/-- The normalising factor of each node — the reciprocal square root of its degree where the degree is positive — from
    any contents that hold the comparison, the reciprocal square roots and the zero. -/
theorem v14_of (V : Valuation τ sig (Elt Ideal)) (x6 : (⟨S2x6400000, .i32⟩ : BufTy).Contents (Elt Ideal))
    (h12 : V (Proc.devRef .tc main_v12) = val_main_v12 (F := Ideal) x6) (h13 : V (Proc.devRef .tc main_v13) = val_main_v13 (F := Ideal) x6)
    (hc : V (Proc.devRef .tc main_cst_2) = val_main_cst_2 (F := Ideal)) :
    StableHlo.after (hostOps0_1 (F := Ideal)) V (Proc.devRef .tc main_v14) = val_main_v14 (F := Ideal) x6 := by
  dsimp only [hostOps0_1]
  after_results
  rw [h12, h13, hc]
  -- a typed reference's contents are the buffer's contents: each transport along the buffer's type equation is the identity
  have ec : ((.of main_cst_2 : StableHlo.TRef sig ⟨S_, .f32⟩)).ofBuf (Val := Elt Ideal) (val_main_cst_2 (F := Ideal)) = val_main_cst_2 (F := Ideal) := rfl
  have e12 : ((.of main_v12 : StableHlo.TRef sig ⟨S100000, .i1⟩)).ofBuf (Val := Elt Ideal) (val_main_v12 (F := Ideal) x6) = val_main_v12 (F := Ideal) x6 := rfl
  have e13 : ((.of main_v13 : StableHlo.TRef sig ⟨S100000, .f32⟩)).ofBuf (Val := Elt Ideal) (val_main_v13 (F := Ideal) x6) = val_main_v13 (F := Ideal) x6 := rfl
  have e0 : ∀ v : (⟨S_, .f32⟩ : BufTy).Contents (Elt Ideal), ((.of main_call0_v0 : StableHlo.TRef sig ⟨S_, .f32⟩)).ofBuf (Val := Elt Ideal) (((.of main_call0_v0 : StableHlo.TRef sig ⟨S_, .f32⟩)).toBuf (Val := Elt Ideal) v) = v := fun _ => rfl
  have e1 : ∀ v : (⟨S100000, .f32⟩ : BufTy).Contents (Elt Ideal), ((.of main_call0_v1 : StableHlo.TRef sig ⟨S100000, .f32⟩)).ofBuf (Val := Elt Ideal) (((.of main_call0_v1 : StableHlo.TRef sig ⟨S100000, .f32⟩)).toBuf (Val := Elt Ideal) v) = v := fun _ => rfl
  have e14 : ∀ v : (⟨S100000, .f32⟩ : BufTy).Contents (Elt Ideal), ((.of main_v14 : StableHlo.TRef sig ⟨S100000, .f32⟩)).toBuf (Val := Elt Ideal) v = v := fun _ => rfl
  rw [ec, e12, e13, e0, e1, e14]
  unfold val_main_v14 val_main_call0_v1 val_main_call0_v0
  rfl

set_option maxHeartbeats 4000000 in
/-- Each edge's normalisation — the product of its two end nodes' factors — from any contents that hold the factors, the
    sources and the targets. -/
theorem v29_of (V : Valuation τ sig (Elt Ideal)) (x6 : (⟨S2x6400000, .i32⟩ : BufTy).Contents (Elt Ideal))
    (h14 : V (Proc.devRef .tc main_v14) = val_main_v14 (F := Ideal) x6) (h3 : V (Proc.devRef .tc main_v3) = val_main_v3 (F := Ideal) x6)
    (h6 : V (Proc.devRef .tc main_v6) = val_main_v6 (F := Ideal) x6) :
    StableHlo.after (hostOps0_2 (F := Ideal)) V (Proc.devRef .tc main_v29) = val_main_v29 (F := Ideal) x6 := by
  dsimp only [hostOps0_2]
  after_results_simp
  rw [h14, h3, h6]
  rfl

variable (m : (ℓ : Loc nD τ sig) → Buf (Elt Ideal) ℓ) (ρ : Dev nD → PrngReg) (c : Dev nD)

/-! ## Buffers no segment writes on the way -/

theorem W4_keep_main_v3 : W4 m ρ c (Proc.devRef .tc main_v3) = W3 m ρ c (Proc.devRef .tc main_v3) :=
  W4_of_ne m ρ c main_v3 (by decide)

theorem W5_keep_main_v3 : W5 m ρ c (Proc.devRef .tc main_v3) = W4 m ρ c (Proc.devRef .tc main_v3) := by
  dsimp only [W5, hostOps1]
  after_results

theorem W6_keep_main_v3 : W6 m ρ c (Proc.devRef .tc main_v3) = W5 m ρ c (Proc.devRef .tc main_v3) :=
  W6_of_ne m ρ c main_v3 (by decide)

theorem W7_keep_main_v3 : W7 m ρ c (Proc.devRef .tc main_v3) = W6 m ρ c (Proc.devRef .tc main_v3) :=
  W7_of_ne m ρ c main_v3 (by decide)

theorem W4_keep_main_v6 : W4 m ρ c (Proc.devRef .tc main_v6) = W3 m ρ c (Proc.devRef .tc main_v6) :=
  W4_of_ne m ρ c main_v6 (by decide)

theorem W5_keep_main_v6 : W5 m ρ c (Proc.devRef .tc main_v6) = W4 m ρ c (Proc.devRef .tc main_v6) := by
  dsimp only [W5, hostOps1]
  after_results

theorem W6_keep_main_v6 : W6 m ρ c (Proc.devRef .tc main_v6) = W5 m ρ c (Proc.devRef .tc main_v6) :=
  W6_of_ne m ρ c main_v6 (by decide)

theorem W7_keep_main_v6 : W7 m ρ c (Proc.devRef .tc main_v6) = W6 m ρ c (Proc.devRef .tc main_v6) :=
  W7_of_ne m ρ c main_v6 (by decide)

theorem W4_keep_main_v29 : W4 m ρ c (Proc.devRef .tc main_v29) = W3 m ρ c (Proc.devRef .tc main_v29) :=
  W4_of_ne m ρ c main_v29 (by decide)

theorem W5_keep_main_v29 : W5 m ρ c (Proc.devRef .tc main_v29) = W4 m ρ c (Proc.devRef .tc main_v29) := by
  dsimp only [W5, hostOps1]
  after_results

theorem W6_keep_main_v29 : W6 m ρ c (Proc.devRef .tc main_v29) = W5 m ρ c (Proc.devRef .tc main_v29) :=
  W6_of_ne m ρ c main_v29 (by decide)

theorem W7_keep_main_v29 : W7 m ρ c (Proc.devRef .tc main_v29) = W6 m ρ c (Proc.devRef .tc main_v29) :=
  W7_of_ne m ρ c main_v29 (by decide)

theorem W1_keep_main_arg2 : W1 m ρ c (Proc.devRef .tc main_arg2) = W0 m ρ c (Proc.devRef .tc main_arg2) := by
  dsimp only [W1, hostOps0]
  after_results

theorem W2_keep_main_arg2 : W2 m ρ c (Proc.devRef .tc main_arg2) = W1 m ρ c (Proc.devRef .tc main_arg2) := by
  dsimp only [W2, hostOps0_1]
  after_results

theorem W3_keep_main_arg2 : W3 m ρ c (Proc.devRef .tc main_arg2) = W2 m ρ c (Proc.devRef .tc main_arg2) := by
  dsimp only [W3, hostOps0_2]
  after_results

theorem W4_keep_main_arg2 : W4 m ρ c (Proc.devRef .tc main_arg2) = W3 m ρ c (Proc.devRef .tc main_arg2) :=
  W4_of_ne m ρ c main_arg2 (by decide)

theorem W1_keep_main_arg3 : W1 m ρ c (Proc.devRef .tc main_arg3) = W0 m ρ c (Proc.devRef .tc main_arg3) := by
  dsimp only [W1, hostOps0]
  after_results

theorem W2_keep_main_arg3 : W2 m ρ c (Proc.devRef .tc main_arg3) = W1 m ρ c (Proc.devRef .tc main_arg3) := by
  dsimp only [W2, hostOps0_1]
  after_results

theorem W3_keep_main_arg3 : W3 m ρ c (Proc.devRef .tc main_arg3) = W2 m ρ c (Proc.devRef .tc main_arg3) := by
  dsimp only [W3, hostOps0_2]
  after_results

theorem W4_keep_main_arg3 : W4 m ρ c (Proc.devRef .tc main_arg3) = W3 m ρ c (Proc.devRef .tc main_arg3) :=
  W4_of_ne m ρ c main_arg3 (by decide)

theorem W1_keep_main_arg4 : W1 m ρ c (Proc.devRef .tc main_arg4) = W0 m ρ c (Proc.devRef .tc main_arg4) := by
  dsimp only [W1, hostOps0]
  after_results

theorem W2_keep_main_arg4 : W2 m ρ c (Proc.devRef .tc main_arg4) = W1 m ρ c (Proc.devRef .tc main_arg4) := by
  dsimp only [W2, hostOps0_1]
  after_results

theorem W3_keep_main_arg4 : W3 m ρ c (Proc.devRef .tc main_arg4) = W2 m ρ c (Proc.devRef .tc main_arg4) := by
  dsimp only [W3, hostOps0_2]
  after_results

theorem W4_keep_main_arg4 : W4 m ρ c (Proc.devRef .tc main_arg4) = W3 m ρ c (Proc.devRef .tc main_arg4) :=
  W4_of_ne m ρ c main_arg4 (by decide)

theorem W5_keep_main_arg4 : W5 m ρ c (Proc.devRef .tc main_arg4) = W4 m ρ c (Proc.devRef .tc main_arg4) := by
  dsimp only [W5, hostOps1]
  after_results

theorem W6_keep_main_arg4 : W6 m ρ c (Proc.devRef .tc main_arg4) = W5 m ρ c (Proc.devRef .tc main_arg4) :=
  W6_of_ne m ρ c main_arg4 (by decide)

theorem W1_keep_main_arg5 : W1 m ρ c (Proc.devRef .tc main_arg5) = W0 m ρ c (Proc.devRef .tc main_arg5) := by
  dsimp only [W1, hostOps0]
  after_results

theorem W2_keep_main_arg5 : W2 m ρ c (Proc.devRef .tc main_arg5) = W1 m ρ c (Proc.devRef .tc main_arg5) := by
  dsimp only [W2, hostOps0_1]
  after_results

theorem W3_keep_main_arg5 : W3 m ρ c (Proc.devRef .tc main_arg5) = W2 m ρ c (Proc.devRef .tc main_arg5) := by
  dsimp only [W3, hostOps0_2]
  after_results

theorem W4_keep_main_arg5 : W4 m ρ c (Proc.devRef .tc main_arg5) = W3 m ρ c (Proc.devRef .tc main_arg5) :=
  W4_of_ne m ρ c main_arg5 (by decide)

theorem W5_keep_main_arg5 : W5 m ρ c (Proc.devRef .tc main_arg5) = W4 m ρ c (Proc.devRef .tc main_arg5) := by
  dsimp only [W5, hostOps1]
  after_results

theorem W6_keep_main_arg5 : W6 m ρ c (Proc.devRef .tc main_arg5) = W5 m ρ c (Proc.devRef .tc main_arg5) :=
  W6_of_ne m ρ c main_arg5 (by decide)

theorem W7_keep_main_arg5 : W7 m ρ c (Proc.devRef .tc main_arg5) = W6 m ρ c (Proc.devRef .tc main_arg5) :=
  W7_of_ne m ρ c main_arg5 (by decide)

theorem W1_keep_main_arg7 : W1 m ρ c (Proc.devRef .tc main_arg7) = W0 m ρ c (Proc.devRef .tc main_arg7) := by
  dsimp only [W1, hostOps0]
  after_results

theorem W2_keep_main_arg7 : W2 m ρ c (Proc.devRef .tc main_arg7) = W1 m ρ c (Proc.devRef .tc main_arg7) := by
  dsimp only [W2, hostOps0_1]
  after_results

theorem W3_keep_main_arg7 : W3 m ρ c (Proc.devRef .tc main_arg7) = W2 m ρ c (Proc.devRef .tc main_arg7) := by
  dsimp only [W3, hostOps0_2]
  after_results

theorem W4_keep_main_arg7 : W4 m ρ c (Proc.devRef .tc main_arg7) = W3 m ρ c (Proc.devRef .tc main_arg7) :=
  W4_of_ne m ρ c main_arg7 (by decide)

theorem W5_keep_main_arg7 : W5 m ρ c (Proc.devRef .tc main_arg7) = W4 m ρ c (Proc.devRef .tc main_arg7) := by
  dsimp only [W5, hostOps1]
  after_results

theorem W6_keep_main_arg7 : W6 m ρ c (Proc.devRef .tc main_arg7) = W5 m ρ c (Proc.devRef .tc main_arg7) :=
  W6_of_ne m ρ c main_arg7 (by decide)

theorem W7_keep_main_arg7 : W7 m ρ c (Proc.devRef .tc main_arg7) = W6 m ρ c (Proc.devRef .tc main_arg7) :=
  W7_of_ne m ρ c main_arg7 (by decide)

theorem W8_keep_main_arg7 : W8 m ρ c (Proc.devRef .tc main_arg7) = W7 m ρ c (Proc.devRef .tc main_arg7) := by
  dsimp only [W8, hostOps3]
  after_results

theorem W9_keep_main_arg7 : W9 m ρ c (Proc.devRef .tc main_arg7) = W8 m ρ c (Proc.devRef .tc main_arg7) :=
  W9_of_ne m ρ c main_arg7 (by decide)

theorem W1_keep_main_arg0 : W1 m ρ c (Proc.devRef .tc main_arg0) = W0 m ρ c (Proc.devRef .tc main_arg0) := by
  dsimp only [W1, hostOps0]
  after_results

theorem W2_keep_main_arg0 : W2 m ρ c (Proc.devRef .tc main_arg0) = W1 m ρ c (Proc.devRef .tc main_arg0) := by
  dsimp only [W2, hostOps0_1]
  after_results

theorem W3_keep_main_arg0 : W3 m ρ c (Proc.devRef .tc main_arg0) = W2 m ρ c (Proc.devRef .tc main_arg0) := by
  dsimp only [W3, hostOps0_2]
  after_results

theorem W1_keep_main_arg1 : W1 m ρ c (Proc.devRef .tc main_arg1) = W0 m ρ c (Proc.devRef .tc main_arg1) := by
  dsimp only [W1, hostOps0]
  after_results

theorem W2_keep_main_arg1 : W2 m ρ c (Proc.devRef .tc main_arg1) = W1 m ρ c (Proc.devRef .tc main_arg1) := by
  dsimp only [W2, hostOps0_1]
  after_results

theorem W3_keep_main_arg1 : W3 m ρ c (Proc.devRef .tc main_arg1) = W2 m ρ c (Proc.devRef .tc main_arg1) := by
  dsimp only [W3, hostOps0_2]
  after_results

/-! ## The arguments, as launched -/

theorem W3_main_arg0 : W3 m ρ c (Proc.devRef .tc main_arg0) = (m ((c : Thread nD τ).loc main_arg0)) :=
  ((W3_keep_main_arg0 m ρ c).trans ((W2_keep_main_arg0 m ρ c).trans ((W1_keep_main_arg0 m ρ c).trans rfl)))

theorem W3_main_arg1 : W3 m ρ c (Proc.devRef .tc main_arg1) = (m ((c : Thread nD τ).loc main_arg1)) :=
  ((W3_keep_main_arg1 m ρ c).trans ((W2_keep_main_arg1 m ρ c).trans ((W1_keep_main_arg1 m ρ c).trans rfl)))

theorem W4_main_arg2 : W4 m ρ c (Proc.devRef .tc main_arg2) = (m ((c : Thread nD τ).loc main_arg2)) :=
  ((W4_keep_main_arg2 m ρ c).trans ((W3_keep_main_arg2 m ρ c).trans ((W2_keep_main_arg2 m ρ c).trans ((W1_keep_main_arg2 m ρ c).trans rfl))))

theorem W4_main_arg3 : W4 m ρ c (Proc.devRef .tc main_arg3) = (m ((c : Thread nD τ).loc main_arg3)) :=
  ((W4_keep_main_arg3 m ρ c).trans ((W3_keep_main_arg3 m ρ c).trans ((W2_keep_main_arg3 m ρ c).trans ((W1_keep_main_arg3 m ρ c).trans rfl))))

theorem W6_main_arg4 : W6 m ρ c (Proc.devRef .tc main_arg4) = (m ((c : Thread nD τ).loc main_arg4)) :=
  ((W6_keep_main_arg4 m ρ c).trans ((W5_keep_main_arg4 m ρ c).trans ((W4_keep_main_arg4 m ρ c).trans ((W3_keep_main_arg4 m ρ c).trans ((W2_keep_main_arg4 m ρ c).trans ((W1_keep_main_arg4 m ρ c).trans rfl))))))

theorem W7_main_arg5 : W7 m ρ c (Proc.devRef .tc main_arg5) = (m ((c : Thread nD τ).loc main_arg5)) :=
  ((W7_keep_main_arg5 m ρ c).trans ((W6_keep_main_arg5 m ρ c).trans ((W5_keep_main_arg5 m ρ c).trans ((W4_keep_main_arg5 m ρ c).trans ((W3_keep_main_arg5 m ρ c).trans ((W2_keep_main_arg5 m ρ c).trans ((W1_keep_main_arg5 m ρ c).trans rfl)))))))

theorem W9_main_arg7 : W9 m ρ c (Proc.devRef .tc main_arg7) = (m ((c : Thread nD τ).loc main_arg7)) :=
  ((W9_keep_main_arg7 m ρ c).trans ((W8_keep_main_arg7 m ρ c).trans ((W7_keep_main_arg7 m ρ c).trans ((W6_keep_main_arg7 m ρ c).trans ((W5_keep_main_arg7 m ρ c).trans ((W4_keep_main_arg7 m ρ c).trans ((W3_keep_main_arg7 m ρ c).trans ((W2_keep_main_arg7 m ρ c).trans ((W1_keep_main_arg7 m ρ c).trans rfl)))))))))

/-! ## The edge structure, computed before the first region -/

theorem W3_main_v3 : W3 m ρ c (Proc.devRef .tc main_v3) = val_main_v3 (F := Ideal) (m ((c : Thread nD τ).loc main_arg6)) := by
  dsimp only [W3, W2, W1, hostOps0, hostOps0_1, hostOps0_2]
  after_results
  rfl

theorem W3_main_v6 : W3 m ρ c (Proc.devRef .tc main_v6) = val_main_v6 (F := Ideal) (m ((c : Thread nD τ).loc main_arg6)) := by
  dsimp only [W3, W2, W1, hostOps0, hostOps0_1, hostOps0_2]
  after_results
  rfl

theorem W1_main_v3 : W1 m ρ c (Proc.devRef .tc main_v3) = val_main_v3 (F := Ideal) (m ((c : Thread nD τ).loc main_arg6)) := by
  dsimp only [W1, hostOps0]
  after_results
  rfl

theorem W1_main_v6 : W1 m ρ c (Proc.devRef .tc main_v6) = val_main_v6 (F := Ideal) (m ((c : Thread nD τ).loc main_arg6)) := by
  dsimp only [W1, hostOps0]
  after_results
  rfl

/-- Which nodes have positive degree (every node has its self loop, but the comparison is carried as stated). -/
theorem W1_main_v12 : W1 m ρ c (Proc.devRef .tc main_v12) = val_main_v12 (F := Ideal) (m ((c : Thread nD τ).loc main_arg6)) := by
  dsimp only [W1, hostOps0]
  after_results_simp
  rfl

/-- The reciprocal square roots of the degrees. -/
theorem W1_main_v13 : W1 m ρ c (Proc.devRef .tc main_v13) = val_main_v13 (F := Ideal) (m ((c : Thread nD τ).loc main_arg6)) := by
  dsimp only [W1, hostOps0]
  after_results_simp
  rfl

theorem W1_main_cst_2 : W1 m ρ c (Proc.devRef .tc main_cst_2) = val_main_cst_2 (F := Ideal) := by
  dsimp only [W1, hostOps0]
  after_results
  rfl

theorem W2_keep_main_v3 : W2 m ρ c (Proc.devRef .tc main_v3) = W1 m ρ c (Proc.devRef .tc main_v3) := by
  dsimp only [W2, hostOps0_1]
  after_results

theorem W2_keep_main_v6 : W2 m ρ c (Proc.devRef .tc main_v6) = W1 m ρ c (Proc.devRef .tc main_v6) := by
  dsimp only [W2, hostOps0_1]
  after_results

/-- The normalising factor of each node: the reciprocal square root of its degree where the degree is positive. -/
theorem W2_main_v14 : W2 m ρ c (Proc.devRef .tc main_v14) = val_main_v14 (F := Ideal) (m ((c : Thread nD τ).loc main_arg6)) :=
  v14_of (W1 m ρ c) _ (W1_main_v12 m ρ c) (W1_main_v13 m ρ c) (W1_main_cst_2 m ρ c)

/-- Each edge's normalisation: the product of its two end nodes' factors. -/
theorem W3_main_v29 : W3 m ρ c (Proc.devRef .tc main_v29) = val_main_v29 (F := Ideal) (m ((c : Thread nD τ).loc main_arg6)) :=
  v29_of (W2 m ρ c) _ (W2_main_v14 m ρ c) ((W2_keep_main_v3 m ρ c).trans (W1_main_v3 m ρ c)) ((W2_keep_main_v6 m ρ c).trans (W1_main_v6 m ρ c))

theorem W4_main_v3 : W4 m ρ c (Proc.devRef .tc main_v3) = val_main_v3 (F := Ideal) (m ((c : Thread nD τ).loc main_arg6)) :=
  ((W4_keep_main_v3 m ρ c).trans (W3_main_v3 m ρ c))

theorem W7_main_v3 : W7 m ρ c (Proc.devRef .tc main_v3) = val_main_v3 (F := Ideal) (m ((c : Thread nD τ).loc main_arg6)) :=
  ((W7_keep_main_v3 m ρ c).trans ((W6_keep_main_v3 m ρ c).trans ((W5_keep_main_v3 m ρ c).trans ((W4_keep_main_v3 m ρ c).trans (W3_main_v3 m ρ c)))))

theorem W4_main_v6 : W4 m ρ c (Proc.devRef .tc main_v6) = val_main_v6 (F := Ideal) (m ((c : Thread nD τ).loc main_arg6)) :=
  ((W4_keep_main_v6 m ρ c).trans (W3_main_v6 m ρ c))

theorem W7_main_v6 : W7 m ρ c (Proc.devRef .tc main_v6) = val_main_v6 (F := Ideal) (m ((c : Thread nD τ).loc main_arg6)) :=
  ((W7_keep_main_v6 m ρ c).trans ((W6_keep_main_v6 m ρ c).trans ((W5_keep_main_v6 m ρ c).trans ((W4_keep_main_v6 m ρ c).trans (W3_main_v6 m ρ c)))))

theorem W4_main_v29 : W4 m ρ c (Proc.devRef .tc main_v29) = val_main_v29 (F := Ideal) (m ((c : Thread nD τ).loc main_arg6)) :=
  ((W4_keep_main_v29 m ρ c).trans (W3_main_v29 m ρ c))

theorem W7_main_v29 : W7 m ρ c (Proc.devRef .tc main_v29) = val_main_v29 (F := Ideal) (m ((c : Thread nD τ).loc main_arg6)) :=
  ((W7_keep_main_v29 m ρ c).trans ((W6_keep_main_v29 m ρ c).trans ((W5_keep_main_v29 m ρ c).trans ((W4_keep_main_v29 m ρ c).trans (W3_main_v29 m ρ c)))))

/-! ## Between the regions -/

set_option maxHeartbeats 4000000 in
/-- The first aggregation is the reference's, applied to the first region's output. -/
theorem W5_main_v43 : W5 m ρ c (Proc.devRef .tc main_v43) = agg16 (W4 m ρ c (Proc.devRef .tc main_v30)) (m ((c : Thread nD τ).loc main_arg6)) := by
  dsimp only [W5, hostOps1]
  after_results_simp
  rw [W4_main_v3 m ρ c, W4_main_v6 m ρ c, W4_main_v29 m ρ c]
  rfl

theorem W5_main_v44 : W5 m ρ c (Proc.devRef .tc main_v44) = val_main_v44 (F := Ideal) (m ((c : Thread nD τ).loc main_arg2)) := by
  dsimp only [W5, hostOps1]
  after_results
  rw [W4_main_arg2 m ρ c]
  exact row16 _ _

theorem W5_main_v45 : W5 m ρ c (Proc.devRef .tc main_v45) = val_main_v49 (F := Ideal) (m ((c : Thread nD τ).loc main_arg3)) := by
  dsimp only [W5, hostOps1]
  after_results
  rw [W4_main_arg3 m ρ c]
  exact row1 _ _

set_option maxHeartbeats 4000000 in
/-- The second aggregation is the reference's, applied to the third region's output. -/
theorem W8_main_v60 : W8 m ρ c (Proc.devRef .tc main_v60) = agg2 (W7 m ρ c (Proc.devRef .tc main_v47)) (m ((c : Thread nD τ).loc main_arg6)) := by
  dsimp only [W8, hostOps3]
  after_results_simp
  rw [W7_main_v3 m ρ c, W7_main_v6 m ρ c, W7_main_v29 m ρ c]
  rfl

theorem W8_main_v61 : W8 m ρ c (Proc.devRef .tc main_v61) = val_main_v67 (F := Ideal) (m ((c : Thread nD τ).loc main_arg5)) := by
  dsimp only [W8, hostOps3]
  after_results
  rw [W7_main_arg5 m ρ c]
  exact row2 _ _

set_option maxHeartbeats 4000000 in
/-- The result is the reference's pooling of the last region's output. -/
theorem W10_main_v74 : W10 m ρ c (Proc.devRef .tc main_v74) = pool (W9 m ρ c (Proc.devRef .tc main_v62)) (m ((c : Thread nD τ).loc main_arg7)) := by
  dsimp only [W10, hostOps4]
  after_results_simp
  rw [W9_main_arg7 m ρ c]
  rfl

end Cert.KernelIdeal.Host

end
-- ==== Proof.Region0.lean ====
/-
  Region 0: the first layer's feature transform. Each of the 20 grid points multiplies a block of 5000 rows of the
  100000×128 node-feature array by the whole 128×16 weight matrix and writes the 5000×16 block of the result. Over the
  extended reals the narrowing of the operands to a shorter format is the identity, so the result array is, index by
  index, the sum over the 128 features k of x (n, k) · w (k, j).
-/
import proofs.«171630_j17008070492798_1_alg».proof.Proof.Gen.KernelIdeal.Frame
import proofs.«171630_j17008070492798_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The block product at an index

The body's payload is the matrix product of the two loaded blocks into a zero accumulator; narrowing the operands
to a shorter format changes nothing over the extended reals. At output index (p, q) it is the sum over the 128
contraction positions k of (left block at (p, k)) times (right block at (k, q)). -/

/-- The dimension record of the block product: the left operand's axis 1 contracts with the right operand's axis 0. -/
abbrev blockDot : DotDims S5000x128 S128x16 S5000x16 := dot_S5000x128_S128x16_S5000x16_1_0_0_1_n_n

theorem lhs_row (i : S5000x16.Idx) (q : blockDot.contr.Idx) : (blockDot.lhsIdx i q 0).val = (i 0).val := by
  unfold DotDims.lhsIdx
  rw [dif_neg (show ¬(0 : Fin S5000x128.rank) ∈ blockDot.lhsBatch by decide), dif_pos (show (0 : Fin S5000x128.rank) ∈ blockDot.lhsNonContracting by decide)]
  rfl

theorem lhs_col (i : S5000x16.Idx) (q : blockDot.contr.Idx) : (blockDot.lhsIdx i q 1).val = (q ⟨0, by decide⟩).val :=
  blockDot.lhsIdx_val_of_single rfl i q

theorem rhs_row (i : S5000x16.Idx) (q : blockDot.contr.Idx) : (blockDot.rhsIdx i q 0).val = (q ⟨0, by decide⟩).val :=
  blockDot.rhsIdx_val_of_single rfl i q

theorem rhs_col (i : S5000x16.Idx) (q : blockDot.contr.Idx) : (blockDot.rhsIdx i q 1).val = (i 1).val := by
  unfold DotDims.rhsIdx
  rw [dif_neg (show ¬(1 : Fin S128x16.rank) ∈ blockDot.rhsBatch by decide), dif_pos (show (1 : Fin S128x16.rank) ∈ blockDot.rhsNonContracting by decide)]
  rfl

/-- The payload at (p, q): the sum over k of the left block's (p, k) entry times the right block's (k, q) entry. -/
theorem pay_apply (x0 : Vec Ideal S5000x128 .f32) (x1 : Vec Ideal S128x16 .f32) (p : Fin 5000) (q : Fin 16) :
    k0_pay1 (F := Ideal) x0 x1 (ix2 p q) = ∑ k : Fin 128, x0 (ix2 p k) * x1 (ix2 k q) := by
  unfold k0_pay1
  refine (Ideal.matmul_constant_zero_apply blockDot none _ _ (ix2 p q)).trans ?_
  rw [← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 128 rfl rfl).symm k) = ix2 k q := funext fun a => Fin.ext (by
    match a with
    | ⟨0, _⟩ => exact (rhs_row _ _).trans hk
    | ⟨1, _⟩ => exact rhs_col _ _)
  show x0 (blockDot.lhsIdx (ix2 p q) ((contrEquiv1 blockDot 128 rfl rfl).symm k)) * x1 (blockDot.rhsIdx (ix2 p q) ((contrEquiv1 blockDot 128 rfl rfl).symm k)) = _
  rw [el, er]

/-! ## From blocks to the array

At grid point t the output window's block is rows 5000·t … 5000·t + 4999 of the result; the left operand's window
moves with it (same block row, all 128 columns) and the right operand's window is the whole 128×16 matrix. -/

theorem origin_zero : (![0, 0] : Fin 2 → Nat) = fun _ => 0 := funext fun a => by fin_cases a <;> rfl

/-- The printed index maps, decided once over the grid: the left operand's block row is the output's, every other
    block index is 0, and the output's block row is the point's number. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point t writes back is block t of the product of the two operand arrays as the region finds them. -/
theorem flushed_eq (c : Dev nD) (t : Fin cfg0.N) :
    (dat0 (F := Ideal) V c).flushed 2 t = ((cfg0.win 2).blk t).view.read (Elt Ideal)
      (Cert.Spec.dense16 (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero origin_zero]
  simp only [View.ld_unit_zero (S := S5000x128) origin_zero, View.ld_unit_zero (S := S128x16) origin_zero]
  obtain ⟨e0, e1, e2, e3, e4, e5⟩ := index_facts t
  refine funext fun (j : S5000x16.Idx) => ?_
  obtain ⟨p, q, rfl⟩ : ∃ (p : Fin 5000) (q : Fin 16), j = ix2 p q := ⟨j 0, j 1, eq_ix2 j⟩
  refine (pay_apply (iblk0 V c 0 t) (iblk0 V c 1 t) p q).trans ?_
  show _ = Cert.Spec.dense16 (V c (Pipeline.arrRef spec0 0)) (V c (Pipeline.arrRef spec0 1)) (((cfg0.win 2).blk t).view.emb (ix2 p q))
  unfold Cert.Spec.dense16
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 16 + 1 * q.val = win0_2.index t (1 : Fin 2) * 16 + 1 * q.val; omega
  have g0 : iblk0 V c 0 t (ix2 p k) = V c (Pipeline.arrRef spec0 0) (ix2 ((((cfg0.win 2).blk t).view.emb (ix2 p q)) 0) k) := by
    exact congrArg (V c (Pipeline.arrRef spec0 0)) h0
  have g1 : iblk0 V c 1 t (ix2 k q) = V c (Pipeline.arrRef spec0 1) (ix2 k ((((cfg0.win 2).blk t).view.emb (ix2 p q)) 1)) := by
    exact congrArg (V c (Pipeline.arrRef spec0 1)) h1
  rw [g0, g1]

/-- An index of the result array is in point t's block iff each coordinate is in the block's range on its axis. -/
theorem mem_blk (t : Fin cfg0.N) (i : S100000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v30).slice (win0_2.rect t)).set ↔ _
  rw [View.set_slice_whole, Rect.mem_set_unit]
  exact Iff.rfl

/-- The twenty blocks of 5000 rows cover the 100000 rows: row r lies in the block of point r / 5000. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 20 := N_0
  obtain ⟨t, ht⟩ : ∃ t : Fin cfg0.N, t.val = (i 0).val / 5000 :=
    ⟨⟨(i 0).val / 5000, by show _ < grid0.N; omega⟩, rfl⟩
  obtain ⟨-, -, -, -, e4, e5⟩ := index_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 16 ≤ (i 1).val ∧ (i 1).val < win0_2.index t (1 : Fin 2) * 16 + 16
    omega

/-- The result array after the region: the product of the two operand arrays, index by index. -/
theorem final (c : Dev nD) :
    (dat0 (F := Ideal) V c).arrAt 2 cfg0.N
      = Cert.Spec.dense16 (V c (Pipeline.arrRef spec0 0)) (V c (Pipeline.arrRef spec0 1)) :=
  (dat0 (F := Ideal) V c).arrAt_eq_of_cover 2
    (Cert.Spec.dense16 (V c (Pipeline.arrRef spec0 0)) (V c (Pipeline.arrRef spec0 1)))
    (fun t _ => flushed_eq V c t) cover

end Cert.KernelIdeal.Region0

end
-- ==== Proof.Region1.lean ====
/-
  Region 1 (the first layer's bias add and PReLU). Each of the twenty grid points stages a 5000×16 block of the
  aggregated features, the whole 1×16 bias row and the 1×1 slope cell, and writes back, entry by entry, h where h ≥ 0
  and slope · h elsewhere, h the block entry plus the bias row's entry of the same column. Read entry by entry, the
  block written at point t is block t of that function of the three arrays as the region finds them; the twenty row
  blocks cover the 100000×16 array, so the array the region leaves is that function.
-/
import proofs.«171630_j17008070492798_1_alg».proof.Proof.Gen.KernelIdeal.Frame
import proofs.«171630_j17008070492798_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The payload at an index: with h the block's entry plus the bias row's entry of the same column, h where h ≥ 0 and
    the slope cell times h elsewhere. -/
theorem pay_apply (b : Vec Ideal S1x16 .f32) (a : Vec Ideal S1x1 .f32) (x : Vec Ideal S5000x16 .f32) (p : Fin 5000) (q : Fin 16) :
    k1_pay1 (F := Ideal) b a x (ix2 p q)
      = Scalar.select (FloatOps.cmpf .oge ((x (ix2 p q) : Ideal .f32) + (b (ix2 0 q) : Ideal .f32)) (FloatOps.ofBits (F := Ideal) .f32 0x00000000#32))
          ((x (ix2 p q) : Ideal .f32) + (b (ix2 0 q) : Ideal .f32))
          ((a (ix2 0 0) : Ideal .f32) * ((x (ix2 p q) : Ideal .f32) + (b (ix2 0 q) : Ideal .f32))) := by
  have hsum : addf (F := Ideal) (φ := .f32) (shapeCast (α := Ideal .f32) S5000x16 x shapeCasts_S5000x16_S5000x16)
      (broadcastTo (α := Ideal .f32) S5000x16 (shapeCast (α := Ideal .f32) S1x16 (shapeCast (α := Ideal .f32) S1x16 b shapeCasts_S1x16_S1x16) shapeCasts_S1x16_S1x16) broadcasts_S1x16_S5000x16) (ix2 p q)
      = (x (ix2 p q) : Ideal .f32) + (b (ix2 0 q) : Ideal .f32) := by
    rw [shapeCast_self, shapeCast_self, shapeCast_self]
    refine (addf_apply _ _ _).trans ?_
    refine congrArg ((x (ix2 p q) : Ideal .f32) + ·) ?_
    refine broadcastTo_apply (α := Ideal .f32) b _ (ix2 p q) (ix2 0 q) (fun d => ?_)
    match d with
    | ⟨0, _⟩ => rfl
    | ⟨1, _⟩ => rfl
  have hcell : extractAt (α := Ideal .f32) ![0, 0] a inpos_S1x1_p0_0 = (a (ix2 0 0) : Ideal .f32) := by
    unfold extractAt
    refine congrArg a (funext fun d => ?_)
    match d with
    | ⟨0, _⟩ => rfl
    | ⟨1, _⟩ => rfl
  unfold k1_pay1
  show Scalar.select (FloatOps.cmpf .oge (addf (F := Ideal) (φ := .f32) (shapeCast (α := Ideal .f32) S5000x16 x shapeCasts_S5000x16_S5000x16)
      (broadcastTo (α := Ideal .f32) S5000x16 (shapeCast (α := Ideal .f32) S1x16 (shapeCast (α := Ideal .f32) S1x16 b shapeCasts_S1x16_S1x16) shapeCasts_S1x16_S1x16) broadcasts_S1x16_S5000x16) (ix2 p q)) (FloatOps.ofBits (F := Ideal) .f32 0x00000000#32))
    (addf (F := Ideal) (φ := .f32) (shapeCast (α := Ideal .f32) S5000x16 x shapeCasts_S5000x16_S5000x16)
      (broadcastTo (α := Ideal .f32) S5000x16 (shapeCast (α := Ideal .f32) S1x16 (shapeCast (α := Ideal .f32) S1x16 b shapeCasts_S1x16_S1x16) shapeCasts_S1x16_S1x16) broadcasts_S1x16_S5000x16) (ix2 p q))
    (extractAt (α := Ideal .f32) ![0, 0] a inpos_S1x1_p0_0 * addf (F := Ideal) (φ := .f32) (shapeCast (α := Ideal .f32) S5000x16 x shapeCasts_S5000x16_S5000x16)
      (broadcastTo (α := Ideal .f32) S5000x16 (shapeCast (α := Ideal .f32) S1x16 (shapeCast (α := Ideal .f32) S1x16 b shapeCasts_S1x16_S1x16) shapeCasts_S1x16_S1x16) broadcasts_S1x16_S5000x16) (ix2 p q)) = _
  rw [hsum, hcell]

theorem zero_offsets : (![0, 0] : Fin 2 → Nat) = fun _ => 0 := funext fun a => by fin_cases a <;> rfl

/-- One output entry, over variables: when the block entry is the array's entry at `i`, the staged bias row and slope
    cell are the bias row and the slope cell, and `i` has the block index's column, the payload there is the
    specification at `i`. -/
theorem pay_eq_spec (b : Vec Ideal S1x16 .f32) (a : Vec Ideal S1x1 .f32) (x : Vec Ideal S5000x16 .f32)
    (agg : FVec Ideal ⟨2, ![100000, 16]⟩ .f32) (bias : FVec Ideal ⟨2, ![1, 16]⟩ .f32) (slope : FVec Ideal ⟨2, ![1, 1]⟩ .f32)
    (j : S5000x16.Idx) (i : S100000x16.Idx)
    (hx : x j = agg i) (hb : ∀ q : Fin 16, b (ix2 0 q) = bias (ix2 0 q)) (ha : a (ix2 0 0) = slope (ix2 0 0))
    (hi : (i 1).val = (j 1).val) :
    k1_pay1 (F := Ideal) b a x j = Cert.Spec.act agg bias slope i := by
  obtain ⟨p, q, rfl⟩ : ∃ (p : Fin 5000) (q : Fin 16), j = ix2 p q := ⟨j 0, j 1, eq_ix2 j⟩
  refine (pay_apply b a x p q).trans ?_
  show _ = Scalar.select (FloatOps.cmpf .oge ((agg i : Ideal .f32) + (bias (ix2 0 (i 1)) : Ideal .f32)) (FloatOps.ofBits (F := Ideal) .f32 0x00000000#32))
      ((agg i : Ideal .f32) + (bias (ix2 0 (i 1)) : Ideal .f32))
      ((slope (ix2 0 0) : Ideal .f32) * ((agg i : Ideal .f32) + (bias (ix2 0 (i 1)) : Ideal .f32)))
  have hq : (q : Fin 16) = i 1 := Fin.ext hi.symm
  rw [hx, hb q, ha, hq]

/-- The printed index maps over the grid: the input block moves with the output block along the rows, the bias row
    and the slope cell stay, and the output's row block at point `t` is `t`. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- What point `t` writes back is block `t` of the specification of the arrays as the region finds them. -/
theorem flushed_eq (c : Dev nD) (t : Fin cfg1.N) :
    (dat1 (F := Ideal) V c).flushed 3 t = ((cfg1.win 3).blk t).view.read (Elt Ideal)
      (Cert.Spec.act (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zero_offsets]
  simp only [View.ld_unit_zero (S := S5000x16) zero_offsets, View.ld_unit_zero (S := S1x16) zero_offsets,
    View.ld_unit_zero (S := S1x1) zero_offsets]
  obtain ⟨e0, e1, e2, e3, e4, e5, e6, e7⟩ := idx_facts t
  funext j
  refine pay_eq_spec _ _ _ _ _ _ j (((cfg1.win 3).blk t).view.emb j) ?_ (fun q => ?_) ?_ ?_
  · show V c (Pipeline.arrRef spec1 0) (((cfg1.win 0).blk t).view.emb j) = V c (Pipeline.arrRef spec1 0) (((cfg1.win 3).blk t).view.emb j)
    refine congrArg _ (funext fun d => Fin.ext ?_)
    match d with
    | ⟨0, _⟩ => show win1_0.index t (0 : Fin 2) * 5000 + 1 * (j 0).val = win1_3.index t (0 : Fin 2) * 5000 + 1 * (j 0).val; omega
    | ⟨1, _⟩ => show win1_0.index t (1 : Fin 2) * 16 + 1 * (j 1).val = win1_3.index t (1 : Fin 2) * 16 + 1 * (j 1).val; omega
  · show V c (Pipeline.arrRef spec1 1) (((cfg1.win 1).blk t).view.emb (ix2 0 q)) = V c (Pipeline.arrRef spec1 1) (ix2 0 q)
    refine congrArg _ (funext fun d => Fin.ext ?_)
    match d with
    | ⟨0, _⟩ => show win1_1.index t (0 : Fin 2) * 1 + 1 * 0 = 0; omega
    | ⟨1, _⟩ => show win1_1.index t (1 : Fin 2) * 16 + 1 * q.val = q.val; omega
  · show V c (Pipeline.arrRef spec1 2) (((cfg1.win 2).blk t).view.emb (ix2 0 0)) = V c (Pipeline.arrRef spec1 2) (ix2 0 0)
    refine congrArg _ (funext fun d => Fin.ext ?_)
    match d with
    | ⟨0, _⟩ => show win1_2.index t (0 : Fin 2) * 1 + 1 * 0 = 0; omega
    | ⟨1, _⟩ => show win1_2.index t (1 : Fin 2) * 1 + 1 * 0 = 0; omega
  · show win1_3.index t (1 : Fin 2) * 16 + 1 * (j 1).val = (j 1).val
    omega

/-- An index of the array is in point `t`'s block iff each coordinate is in the block's range on its axis. -/
theorem mem_blk (t : Fin cfg1.N) (i : S100000x16.Idx) :
    i ∈ ((cfg1.win 3).blk t).view.set ↔ ∀ a : Fin 2, win1_3.index t a * S5000x16.size a ≤ (i a).val ∧ (i a).val < win1_3.index t a * S5000x16.size a + S5000x16.size a := by
  show i ∈ ((View.whole main_v46).slice (win1_3.rect t)).set ↔ _
  rw [View.set_slice_whole, Rect.mem_set_unit]
  exact Iff.rfl

/-- The twenty row blocks cover the array: row `r` is in the block of point `r / 5000`. -/
theorem cover (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have ht : (i 0).val / 5000 < 20 := by omega
  refine ⟨⟨(i 0).val / 5000, ht⟩, flush1_3 _, ?_⟩
  rw [mem_blk]
  obtain ⟨-, -, -, -, -, -, e6, e7⟩ := idx_facts ⟨(i 0).val / 5000, ht⟩
  have e6' : win1_3.index ⟨(i 0).val / 5000, ht⟩ (0 : Fin 2) = (i 0).val / 5000 := e6
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    omega
  | ⟨1, _⟩ =>
    show win1_3.index ⟨(i 0).val / 5000, ht⟩ (1 : Fin 2) * 16 ≤ (i 1).val ∧ (i 1).val < win1_3.index ⟨(i 0).val / 5000, ht⟩ (1 : Fin 2) * 16 + 16
    omega

/-- The array after the region is the specification of the arrays the region finds. -/
theorem final (c : Dev nD) :
    (dat1 (F := Ideal) V c).arrAt 3 cfg1.N
      = Cert.Spec.act (V c (Pipeline.arrRef spec1 0)) (V c (Pipeline.arrRef spec1 1)) (V c (Pipeline.arrRef spec1 2)) :=
  (dat1 (F := Ideal) V c).arrAt_eq_of_cover 3
    (Cert.Spec.act (V c (Pipeline.arrRef spec1 0)) (V c (Pipeline.arrRef spec1 1)) (V c (Pipeline.arrRef spec1 2)))
    (fun t _ => flushed_eq V c t) cover

end Cert.KernelIdeal.Region1

end
-- ==== Proof.Region2.lean ====
/-
  Region 2: the second layer's feature transform. Each of the 20 grid points multiplies a block of 5000 rows of the
  100000×16 hidden-feature array by the whole 16×2 weight matrix and writes the 5000×2 block of the result. Over the
  extended reals the narrowing of the operands to a shorter format is the identity, so the result array is, index by
  index, the sum over the 16 hidden features k of h (n, k) · w (k, j).
-/
import proofs.«171630_j17008070492798_1_alg».proof.Proof.Gen.KernelIdeal.Frame
import proofs.«171630_j17008070492798_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The block product at an index

The body's payload is the matrix product of the two loaded blocks into a zero accumulator; the cast of the left block
to its own shape and the narrowing of the operands to a shorter format change nothing over the extended reals. At
output index (p, q) it is the sum over the 16 contraction positions k of (left block at (p, k)) times (right block at
(k, q)). -/

/-- The dimension record of the block product: the left operand's axis 1 contracts with the right operand's axis 0. -/
abbrev blockDot : DotDims S5000x16 S16x2 S5000x2 := dot_S5000x16_S16x2_S5000x2_1_0_0_1_n_n

theorem lhs_row (i : S5000x2.Idx) (q : blockDot.contr.Idx) : (blockDot.lhsIdx i q 0).val = (i 0).val := by
  unfold DotDims.lhsIdx
  rw [dif_neg (show ¬(0 : Fin S5000x16.rank) ∈ blockDot.lhsBatch by decide), dif_pos (show (0 : Fin S5000x16.rank) ∈ blockDot.lhsNonContracting by decide)]
  rfl

theorem lhs_col (i : S5000x2.Idx) (q : blockDot.contr.Idx) : (blockDot.lhsIdx i q 1).val = (q ⟨0, by decide⟩).val :=
  blockDot.lhsIdx_val_of_single rfl i q

theorem rhs_row (i : S5000x2.Idx) (q : blockDot.contr.Idx) : (blockDot.rhsIdx i q 0).val = (q ⟨0, by decide⟩).val :=
  blockDot.rhsIdx_val_of_single rfl i q

theorem rhs_col (i : S5000x2.Idx) (q : blockDot.contr.Idx) : (blockDot.rhsIdx i q 1).val = (i 1).val := by
  unfold DotDims.rhsIdx
  rw [dif_neg (show ¬(1 : Fin S16x2.rank) ∈ blockDot.rhsBatch by decide), dif_pos (show (1 : Fin S16x2.rank) ∈ blockDot.rhsNonContracting by decide)]
  rfl

/-- The payload at (p, q): the sum over k of the left block's (p, k) entry times the right block's (k, q) entry. -/
theorem pay_apply (x0 : Vec Ideal S5000x16 .f32) (x1 : Vec Ideal S16x2 .f32) (p : Fin 5000) (q : Fin 2) :
    k2_pay1 (F := Ideal) x0 x1 (ix2 p q) = ∑ k : Fin 16, x0 (ix2 p k) * x1 (ix2 k q) := by
  unfold k2_pay1
  refine (Ideal.matmul_constant_zero_apply blockDot none _ _ (ix2 p q)).trans ?_
  rw [← Equiv.sum_comp (contrEquiv1 blockDot 16 rfl rfl).symm]
  refine Finset.sum_congr rfl fun k _ => ?_
  have hk := contrEquiv1_symm_val blockDot 16 rfl rfl k
  have el : blockDot.lhsIdx (ix2 p q) ((contrEquiv1 blockDot 16 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 16 rfl rfl).symm k) = ix2 k q := funext fun a => Fin.ext (by
    match a with
    | ⟨0, _⟩ => exact (rhs_row _ _).trans hk
    | ⟨1, _⟩ => exact rhs_col _ _)
  show shapeCast S5000x16 x0 shapeCasts_S5000x16_S5000x16 (blockDot.lhsIdx (ix2 p q) ((contrEquiv1 blockDot 16 rfl rfl).symm k))
      * x1 (blockDot.rhsIdx (ix2 p q) ((contrEquiv1 blockDot 16 rfl rfl).symm k)) = _
  rw [shapeCast_self, el, er]

/-! ## From blocks to the array

At grid point t the output window's block is rows 5000·t … 5000·t + 4999 of the result; the left operand's window
moves with it (same block row, all 16 columns) and the right operand's window is the whole 16×2 matrix. -/

theorem origin_zero : (![0, 0] : Fin 2 → Nat) = fun _ => 0 := funext fun a => by fin_cases a <;> rfl

/-- The printed index maps, decided once over the grid: the left operand's block row is the output's, every other
    block index is 0, and the output's block row is the point's number. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- What point t writes back is block t of the product of the two operand arrays as the region finds them. -/
theorem flushed_eq (c : Dev nD) (t : Fin cfg2.N) :
    (dat2 (F := Ideal) V c).flushed 2 t = ((cfg2.win 2).blk t).view.read (Elt Ideal)
      (Cert.Spec.dense2 (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero origin_zero]
  simp only [View.ld_unit_zero (S := S5000x16) origin_zero, View.ld_unit_zero (S := S16x2) origin_zero]
  obtain ⟨e0, e1, e2, e3, e4, e5⟩ := index_facts t
  refine funext fun (j : S5000x2.Idx) => ?_
  obtain ⟨p, q, rfl⟩ : ∃ (p : Fin 5000) (q : Fin 2), j = ix2 p q := ⟨j 0, j 1, eq_ix2 j⟩
  refine (pay_apply (iblk2 V c 0 t) (iblk2 V c 1 t) p q).trans ?_
  show _ = Cert.Spec.dense2 (V c (Pipeline.arrRef spec2 0)) (V c (Pipeline.arrRef spec2 1)) (((cfg2.win 2).blk t).view.emb (ix2 p q))
  unfold Cert.Spec.dense2
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 16 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 16 + 1 * k.val = k.val; omega
    | ⟨1, _⟩ => show win2_1.index t (1 : Fin 2) * 2 + 1 * q.val = win2_2.index t (1 : Fin 2) * 2 + 1 * q.val; omega
  have g0 : iblk2 V c 0 t (ix2 p k) = V c (Pipeline.arrRef spec2 0) (ix2 ((((cfg2.win 2).blk t).view.emb (ix2 p q)) 0) k) := by
    exact congrArg (V c (Pipeline.arrRef spec2 0)) h0
  have g1 : iblk2 V c 1 t (ix2 k q) = V c (Pipeline.arrRef spec2 1) (ix2 k ((((cfg2.win 2).blk t).view.emb (ix2 p q)) 1)) := by
    exact congrArg (V c (Pipeline.arrRef spec2 1)) h1
  rw [g0, g1]

/-- An index of the result array is in point t's block iff each coordinate is in the block's range on its axis. -/
theorem mem_blk (t : Fin cfg2.N) (i : S100000x2.Idx) :
    i ∈ ((cfg2.win 2).blk t).view.set ↔ ∀ a : Fin 2, win2_2.index t a * S5000x2.size a ≤ (i a).val
      ∧ (i a).val < win2_2.index t a * S5000x2.size a + S5000x2.size a := by
  show i ∈ ((View.whole main_v47).slice (win2_2.rect t)).set ↔ _
  rw [View.set_slice_whole, Rect.mem_set_unit]
  exact Iff.rfl

/-- The twenty blocks of 5000 rows cover the 100000 rows: row r lies in the block of point r / 5000. -/
theorem cover (i : S100000x2.Idx) :
    ∃ t : Fin cfg2.N, (cfg2.win 2).flush t = true ∧ i ∈ ((cfg2.win 2).blk t).view.set := by
  have hi0 : (i 0).val < 100000 := (i 0).isLt
  have hi1 : (i 1).val < 2 := (i 1).isLt
  have hN : grid2.N = 20 := N_2
  obtain ⟨t, ht⟩ : ∃ t : Fin cfg2.N, t.val = (i 0).val / 5000 :=
    ⟨⟨(i 0).val / 5000, by show _ < grid2.N; omega⟩, rfl⟩
  obtain ⟨-, -, -, -, e4, e5⟩ := index_facts t
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 2 ≤ (i 1).val ∧ (i 1).val < win2_2.index t (1 : Fin 2) * 2 + 2
    omega

/-- The result array after the region: the product of the two operand arrays, index by index. -/
theorem final (c : Dev nD) :
    (dat2 (F := Ideal) V c).arrAt 2 cfg2.N
      = Cert.Spec.dense2 (V c (Pipeline.arrRef spec2 0)) (V c (Pipeline.arrRef spec2 1)) :=
  (dat2 (F := Ideal) V c).arrAt_eq_of_cover 2
    (Cert.Spec.dense2 (V c (Pipeline.arrRef spec2 0)) (V c (Pipeline.arrRef spec2 1)))
    (fun t _ => flushed_eq V c t) cover

end Cert.KernelIdeal.Region2

end
-- ==== Proof.Region3.lean ====
/-
  Region 3 (the second layer's bias add). Each of the twenty grid points stages a 5000×2 block of the aggregated
  features and the whole 1×2 bias row, and writes back their sum, the row broadcast down the block. Read entry by
  entry, the block written at point t is block t of the function (n, j) ↦ agg (n, j) + b (0, j) of the two arrays as
  the region finds them; the twenty row blocks cover the 100000×2 array, so the array the region leaves is that
  function.
-/
import proofs.«171630_j17008070492798_1_alg».proof.Proof.Gen.KernelIdeal.Frame
import proofs.«171630_j17008070492798_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The payload at an index: the block's entry plus the bias row's entry of the same column. -/
theorem pay_apply (b : Vec Ideal S1x2 .f32) (x : Vec Ideal S5000x2 .f32) (p : Fin 5000) (q : Fin 2) :
    k3_pay1 (F := Ideal) b x (ix2 p q) = (x (ix2 p q) : Ideal .f32) + (b (ix2 0 q) : Ideal .f32) := by
  unfold k3_pay1
  show addf (F := Ideal) (φ := .f32) (shapeCast (α := Ideal .f32) S5000x2 x shapeCasts_S5000x2_S5000x2)
      (broadcastTo (α := Ideal .f32) S5000x2 (shapeCast (α := Ideal .f32) S1x2 (shapeCast (α := Ideal .f32) S1x2 b shapeCasts_S1x2_S1x2) shapeCasts_S1x2_S1x2) broadcasts_S1x2_S5000x2) (ix2 p q) = _
  rw [shapeCast_self, shapeCast_self, shapeCast_self]
  refine (addf_apply _ _ _).trans ?_
  refine congrArg ((x (ix2 p q) : Ideal .f32) + ·) ?_
  refine broadcastTo_apply (α := Ideal .f32) b _ (ix2 p q) (ix2 0 q) (fun a => ?_)
  match a with
  | ⟨0, _⟩ => rfl
  | ⟨1, _⟩ => rfl

theorem zero_offsets : (![0, 0] : Fin 2 → Nat) = fun _ => 0 := funext fun a => by fin_cases a <;> rfl

/-- One output entry, over variables: when the block entry is the array's entry at `i`, the staged bias row is the
    bias row, and `i` has the block index's column, the payload there is the specification at `i`. -/
theorem pay_eq_spec (b : Vec Ideal S1x2 .f32) (x : Vec Ideal S5000x2 .f32)
    (agg : FVec Ideal ⟨2, ![100000, 2]⟩ .f32) (bias : FVec Ideal ⟨2, ![1, 2]⟩ .f32)
    (j : S5000x2.Idx) (i : S100000x2.Idx)
    (hx : x j = agg i) (hb : ∀ q : Fin 2, b (ix2 0 q) = bias (ix2 0 q)) (hi : (i 1).val = (j 1).val) :
    k3_pay1 (F := Ideal) b x j = Cert.Spec.bias2 agg bias i := by
  obtain ⟨p, q, rfl⟩ : ∃ (p : Fin 5000) (q : Fin 2), j = ix2 p q := ⟨j 0, j 1, eq_ix2 j⟩
  refine (pay_apply b x p q).trans ?_
  show _ = (agg i : Ideal .f32) + (bias (ix2 0 (i 1)) : Ideal .f32)
  have hq : (q : Fin 2) = i 1 := Fin.ext hi.symm
  rw [hx, hb q, hq]

/-- The printed index maps over the grid: the input block moves with the output block along the rows, the bias row
    stays, and the output's row block at point `t` is `t`. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point `t` writes back is block `t` of the specification of the arrays as the region finds them. -/
theorem flushed_eq (c : Dev nD) (t : Fin cfg3.N) :
    (dat3 (F := Ideal) V c).flushed 2 t = ((cfg3.win 2).blk t).view.read (Elt Ideal)
      (Cert.Spec.bias2 (V c (Pipeline.arrRef spec3 0)) (V c (Pipeline.arrRef spec3 1))) := by
  show (cfg3.win 2).cut (grid3.coords t) ((dat3 V c).after 2 t) = _
  rw [after3_2]
  unfold out3_2
  rw [View.canon_unit_zero zero_offsets]
  simp only [View.ld_unit_zero (S := S5000x2) zero_offsets, View.ld_unit_zero (S := S1x2) zero_offsets]
  obtain ⟨e0, e1, e2, e3, e4, e5⟩ := idx_facts t
  funext j
  refine pay_eq_spec _ _ _ _ j (((cfg3.win 2).blk t).view.emb j) ?_ (fun q => ?_) ?_
  · show V c (Pipeline.arrRef spec3 0) (((cfg3.win 0).blk t).view.emb j) = V c (Pipeline.arrRef spec3 0) (((cfg3.win 2).blk t).view.emb j)
    refine congrArg _ (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 2 + 1 * (j 1).val = win3_2.index t (1 : Fin 2) * 2 + 1 * (j 1).val; omega
  · show V c (Pipeline.arrRef spec3 1) (((cfg3.win 1).blk t).view.emb (ix2 0 q)) = V c (Pipeline.arrRef spec3 1) (ix2 0 q)
    refine congrArg _ (funext fun a => Fin.ext ?_)
    match a with
    | ⟨0, _⟩ => show win3_1.index t (0 : Fin 2) * 1 + 1 * 0 = 0; omega
    | ⟨1, _⟩ => show win3_1.index t (1 : Fin 2) * 2 + 1 * q.val = q.val; omega
  · show win3_2.index t (1 : Fin 2) * 2 + 1 * (j 1).val = (j 1).val
    omega

/-- An index of the array is in point `t`'s block iff each coordinate is in the block's range on its axis. -/
theorem mem_blk (t : Fin cfg3.N) (i : S100000x2.Idx) :
    i ∈ ((cfg3.win 2).blk t).view.set ↔ ∀ a : Fin 2, win3_2.index t a * S5000x2.size a ≤ (i a).val ∧ (i a).val < win3_2.index t a * S5000x2.size a + S5000x2.size a := by
  show i ∈ ((View.whole main_v62).slice (win3_2.rect t)).set ↔ _
  rw [View.set_slice_whole, Rect.mem_set_unit]
  exact Iff.rfl

/-- The twenty row blocks cover the array: row `r` is in the block of point `r / 5000`. -/
theorem cover (i : S100000x2.Idx) :
    ∃ t : Fin cfg3.N, (cfg3.win 2).flush t = true ∧ i ∈ ((cfg3.win 2).blk t).view.set := by
  have hi0 : (i 0).val < 100000 := (i 0).isLt
  have hi1 : (i 1).val < 2 := (i 1).isLt
  have ht : (i 0).val / 5000 < 20 := by omega
  refine ⟨⟨(i 0).val / 5000, ht⟩, flush3_2 _, ?_⟩
  rw [mem_blk]
  obtain ⟨-, -, -, -, e4, e5⟩ := idx_facts ⟨(i 0).val / 5000, ht⟩
  have e4' : win3_2.index ⟨(i 0).val / 5000, ht⟩ (0 : Fin 2) = (i 0).val / 5000 := e4
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    omega
  | ⟨1, _⟩ =>
    show win3_2.index ⟨(i 0).val / 5000, ht⟩ (1 : Fin 2) * 2 ≤ (i 1).val ∧ (i 1).val < win3_2.index ⟨(i 0).val / 5000, ht⟩ (1 : Fin 2) * 2 + 2
    omega

/-- The array after the region is the specification of the arrays the region finds. -/
theorem final (c : Dev nD) :
    (dat3 (F := Ideal) V c).arrAt 2 cfg3.N
      = Cert.Spec.bias2 (V c (Pipeline.arrRef spec3 0)) (V c (Pipeline.arrRef spec3 1)) :=
  (dat3 (F := Ideal) V c).arrAt_eq_of_cover 2
    (Cert.Spec.bias2 (V c (Pipeline.arrRef spec3 0)) (V c (Pipeline.arrRef spec3 1)))
    (fun t _ => flushed_eq V c t) cover

end Cert.KernelIdeal.Region3

end
-- ==== Proof.KernelValue.lean ====
/-
  The idealized kernel program's result as ONE function of the argument arrays.

  Following the result buffer back through the program's segments: the pooling of the last region's output; that region
  adds the second bias row to the second aggregation; the aggregation is of the third region's product of the hidden
  features with the second weight matrix; the hidden features are the second region's PReLU of the first aggregation
  plus the first bias row; and the first aggregation is of the first region's product of the node features with the
  first weight matrix. Each region leaves, in its output array, the specified function of the arrays it finds (the four
  region lemmas); each stretch of host operations in between is the reference's own chain applied to the region's output.
-/
import proofs.«171630_j17008070492798_1_alg».proof.Proof.KernelHost
import proofs.«171630_j17008070492798_1_alg».proof.Proof.Region0
import proofs.«171630_j17008070492798_1_alg».proof.Proof.Region1
import proofs.«171630_j17008070492798_1_alg».proof.Proof.Region2
import proofs.«171630_j17008070492798_1_alg».proof.Proof.Region3

set_option maxRecDepth 16384

noncomputable section

namespace Cert.KernelIdeal.Result

open Cert.KernelIdeal Cert.KernelIdeal.Gen Cert.KernelIdeal.Host
open Idealize.ShloMosaic Idealize.ShloMosaic.TcCoe Idealize.SL.Sem
open Cert.ReferenceIdeal.ReadP Cert.ReferenceIdeal.Chain

variable (m : (ℓ : Loc nD τ sig) → Buf (Elt Ideal) ℓ) (ρ : Dev nD → PrngReg) (c : Dev nD)

/-- The first region's output: the node features times the first weight matrix. -/
theorem region0 : W4 m ρ c (Proc.devRef .tc main_v30) = Cert.Spec.dense16 (m ((c : Thread nD τ).loc main_arg0)) (m ((c : Thread nD τ).loc main_arg1)) := by
  have h : W4 m ρ c (Proc.devRef .tc main_v30)
      = Cert.Spec.dense16 (W3 m ρ c (Proc.devRef .tc main_arg0)) (W3 m ρ c (Proc.devRef .tc main_arg1)) :=
    (W4_arr m ρ c 2).trans (Cert.KernelIdeal.Region0.final (V3 m ρ) c)
  rw [h, W3_main_arg0 m ρ c, W3_main_arg1 m ρ c]

/-- The second region's output: PReLU of the first aggregation plus the first bias row. -/
theorem region1 : W6 m ρ c (Proc.devRef .tc main_v46)
    = Cert.Spec.act (agg16 (Cert.Spec.dense16 (m ((c : Thread nD τ).loc main_arg0)) (m ((c : Thread nD τ).loc main_arg1))) (m ((c : Thread nD τ).loc main_arg6)))
        (val_main_v44 (F := Ideal) (m ((c : Thread nD τ).loc main_arg2))) (val_main_v49 (F := Ideal) (m ((c : Thread nD τ).loc main_arg3))) := by
  have h : W6 m ρ c (Proc.devRef .tc main_v46)
      = Cert.Spec.act (W5 m ρ c (Proc.devRef .tc main_v43)) (W5 m ρ c (Proc.devRef .tc main_v44)) (W5 m ρ c (Proc.devRef .tc main_v45)) :=
    (W6_arr m ρ c 3).trans (Cert.KernelIdeal.Region1.final (V5 m ρ) c)
  rw [h, W5_main_v43 m ρ c, W5_main_v44 m ρ c, W5_main_v45 m ρ c, region0 m ρ c]

/-- The third region's output: the hidden features times the second weight matrix. -/
theorem region2 : W7 m ρ c (Proc.devRef .tc main_v47)
    = Cert.Spec.dense2 (Cert.Spec.act (agg16 (Cert.Spec.dense16 (m ((c : Thread nD τ).loc main_arg0)) (m ((c : Thread nD τ).loc main_arg1))) (m ((c : Thread nD τ).loc main_arg6)))
        (val_main_v44 (F := Ideal) (m ((c : Thread nD τ).loc main_arg2))) (val_main_v49 (F := Ideal) (m ((c : Thread nD τ).loc main_arg3)))) (m ((c : Thread nD τ).loc main_arg4)) := by
  have h : W7 m ρ c (Proc.devRef .tc main_v47)
      = Cert.Spec.dense2 (W6 m ρ c (Proc.devRef .tc main_v46)) (W6 m ρ c (Proc.devRef .tc main_arg4)) :=
    (W7_arr m ρ c 2).trans (Cert.KernelIdeal.Region2.final (V6 m ρ) c)
  rw [h, region1 m ρ c, W6_main_arg4 m ρ c]

/-- The fourth region's output: the second aggregation plus the second bias row. -/
theorem region3 : W9 m ρ c (Proc.devRef .tc main_v62)
    = Cert.Spec.bias2 (agg2 (Cert.Spec.dense2 (Cert.Spec.act (agg16 (Cert.Spec.dense16 (m ((c : Thread nD τ).loc main_arg0)) (m ((c : Thread nD τ).loc main_arg1))) (m ((c : Thread nD τ).loc main_arg6)))
        (val_main_v44 (F := Ideal) (m ((c : Thread nD τ).loc main_arg2))) (val_main_v49 (F := Ideal) (m ((c : Thread nD τ).loc main_arg3)))) (m ((c : Thread nD τ).loc main_arg4))) (m ((c : Thread nD τ).loc main_arg6)))
        (val_main_v67 (F := Ideal) (m ((c : Thread nD τ).loc main_arg5))) := by
  have h : W9 m ρ c (Proc.devRef .tc main_v62)
      = Cert.Spec.bias2 (W8 m ρ c (Proc.devRef .tc main_v60)) (W8 m ρ c (Proc.devRef .tc main_v61)) :=
    (W9_arr m ρ c 2).trans (Cert.KernelIdeal.Region3.final (V8 m ρ) c)
  rw [h, W8_main_v60 m ρ c, W8_main_v61 m ρ c, region2 m ρ c]

/-- The result buffer: the pooling of the fourth region's output. -/
theorem result : W10 m ρ c (Proc.devRef .tc main_v74)
    = pool (Cert.Spec.bias2 (agg2 (Cert.Spec.dense2 (Cert.Spec.act (agg16 (Cert.Spec.dense16 (m ((c : Thread nD τ).loc main_arg0)) (m ((c : Thread nD τ).loc main_arg1))) (m ((c : Thread nD τ).loc main_arg6)))
        (val_main_v44 (F := Ideal) (m ((c : Thread nD τ).loc main_arg2))) (val_main_v49 (F := Ideal) (m ((c : Thread nD τ).loc main_arg3)))) (m ((c : Thread nD τ).loc main_arg4))) (m ((c : Thread nD τ).loc main_arg6)))
        (val_main_v67 (F := Ideal) (m ((c : Thread nD τ).loc main_arg5)))) (m ((c : Thread nD τ).loc main_arg7)) := by
  rw [W10_main_v74 m ρ c, region3 m ρ c]

end Cert.KernelIdeal.Result

end
-- ==== Proof.lean ====
/-
  A two-layer graph convolution with PReLU and a mean pool, computed by a program of four pipelined kernels (two
  products with weight matrices, a bias add with PReLU, a bias add) among host operations (the edge structure and its
  normalisation, the gather / scale / scatter-add aggregations, the pooling), against a plain reference.

  At the ideal instance both programs compute the same function of the arguments:
    pool (A₂ (PReLU (A₁ (x · W1) + b1) · W2) + b2)
  where A₁, A₂ (the aggregations) and pool are the SAME host operations in both programs, carried as opaque functions of
  the array going in, and each dense stage is the same function index by index: a kernel's product block by block is
  the reference's whole product (the sum over the contracted axis), a bias row staged whole and broadcast down a block
  is the reference's broadcast of the bias down the nodes, the one slope cell is the reference's broadcast slope. No
  algebraic law beyond reading both sides at an index is needed, so the precondition (finite inputs) is never opened.
  The three frames are the generated frame runs (the reference's: its run with the result dropped); the idealization
  rewrote nothing, so `preserves` is trivial.
-/
import proofs.«171630_j17008070492798_1_alg».proof.Defs
import proofs.«171630_j17008070492798_1_alg».proof.Proof.Gen.Kernel
import proofs.«171630_j17008070492798_1_alg».proof.Proof.Gen.Kernel.Frame
import proofs.«171630_j17008070492798_1_alg».proof.Proof.Gen.KernelIdeal
import proofs.«171630_j17008070492798_1_alg».proof.Proof.Gen.KernelIdeal.Frame
import proofs.«171630_j17008070492798_1_alg».proof.Proof.Gen.ReferenceIdeal
import proofs.«171630_j17008070492798_1_alg».proof.Proof.Gen.Pre_finite_inputs
import proofs.«171630_j17008070492798_1_alg».proof.Proof.RefRun
import proofs.«171630_j17008070492798_1_alg».proof.Proof.RefRead
import proofs.«171630_j17008070492798_1_alg».proof.Proof.RefChain
import proofs.«171630_j17008070492798_1_alg».proof.Proof.KernelRun
import proofs.«171630_j17008070492798_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both runs end with the same composition of the specified dense stages and the shared host chains, of arguments
    that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W10 m ρ c (Proc.devRef .tc Cert.KernelIdeal.main_v74),
    Cert.KernelIdeal.RunValue.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  rw [Cert.ReferenceIdeal.ReadP.val_main_v81_eq, Cert.ReferenceIdeal.Chain.result_eq, a0, a1, a2, a3, a4, a5, a6, a7]
  exact (Cert.KernelIdeal.Result.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
